-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x20000x256 : Shape := ⟨3, ![4, 20000, 256]⟩
abbrev S160000 : Shape := ⟨1, ![160000]⟩
abbrev S256x256 : Shape := ⟨2, ![256, 256]⟩
abbrev S256 : Shape := ⟨1, ![256]⟩
abbrev S_ : Shape := ⟨0, ![]⟩

class Facts : Prop where
  bcast_S_S4x20000x256 : S_.BroadcastsInDim S4x20000x256 (![] : Fin 0 → Fin S4x20000x256.rank)
  reducesTo_S4x20000x256_S_d0_1_2 : S4x20000x256.ReducesTo [0, 1, 2] S_
  h_S_ : 0 < S_.numel
  bcast_S_S160000 : S_.BroadcastsInDim S160000 (![] : Fin 0 → Fin S160000.rank)
  reducesTo_S160000_S_d0 : S160000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4x20000x256 .f32) (main_arg1 : IVec S160000 32) (main_arg2 : IVec S160000 32) (main_arg3 : FVec F S160000 .f32) (main_arg4 : FVec F S256x256 .f32) (main_arg5 : FVec F S256x256 .f32) (main_arg6 : FVec F S256 .f32) : IVec S_ 1 :=
  let main_v0 : FVec F S4x20000x256 .f32 := Host.absf main_arg0
  let main_cst : FVec F S_ .f32 := constant S_ .f32 0x7F800000#32
  let main_v1 : FVec F S4x20000x256 .f32 := broadcastInDim S4x20000x256 ![] bcast_S_S4x20000x256 main_cst
  let main_v2 : IVec S4x20000x256 1 := cmpf .olt main_v0 main_v1
  let main_c : IVec S_ 1 := constantI S_ 1 1#1
  let main_v3 : IVec S_ 1 := (fun x v => Host.reduce IntOp.andi x v reducesTo_S4x20000x256_S_d0_1_2 h_S_) main_v2 main_c
  let main_v4 : FVec F S160000 .f32 := Host.absf main_arg3
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_v13 main_v16
-- ==== Kernel.lean ====
abbrev S4x20000x256 : Shape := ⟨3, ![4, 20000, 256]⟩
abbrev S160000 : Shape := ⟨1, ![160000]⟩
abbrev S256x256 : Shape := ⟨2, ![256, 256]⟩
abbrev S256 : Shape := ⟨1, ![256]⟩
abbrev S80000x256 : Shape := ⟨2, ![80000, 256]⟩
abbrev S5000x256 : Shape := ⟨2, ![5000, 256]⟩
abbrev S1x256 : Shape := ⟨2, ![1, 256]⟩
abbrev S20000x4x256 : Shape := ⟨3, ![20000, 4, 256]⟩
abbrev S20000x1024 : Shape := ⟨2, ![20000, 1024]⟩
abbrev S_ : Shape := ⟨0, ![]⟩
abbrev S160000x1 : Shape := ⟨2, ![160000, 1]⟩
abbrev S160000x1024 : Shape := ⟨2, ![160000, 1024]⟩

abbrev nBuf : Space → Nat
  | .hbm => 33
  | .vmem => 9
  | .smem => 0
  | _ => 0

abbrev bufTy : (tb : Table) → Fin (tcTables nBuf tb) → BufTy
  | .hbm, ⟨0, _⟩ => ⟨S4x20000x256, .f32⟩
  | .hbm, ⟨1, _⟩ => ⟨S160000, .i32⟩
  | .hbm, ⟨2, _⟩ => ⟨S160000, .i32⟩
  | .hbm, ⟨3, _⟩ => ⟨S160000, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S80000x256, .f32⟩
  | .hbm, ⟨8, _⟩ => ⟨S80000x256, .f32⟩
  | .hbm, ⟨9, _⟩ => ⟨S80000x256, .f32⟩
  | .hbm, ⟨10, _⟩ => ⟨S4x20000x256, .f32⟩
  | .hbm, ⟨11, _⟩ => ⟨S20000x4x256, .f32⟩
  | .hbm, ⟨12, _⟩ => ⟨S20000x1024, .f32⟩
  | .hbm, ⟨13, _⟩ => ⟨S_, .i32⟩
  | .hbm, ⟨14, _⟩ => ⟨S160000, .i32⟩
  | .hbm, ⟨15, _⟩ => ⟨S160000, .i1⟩
  | .hbm, ⟨16, _⟩ => ⟨S_, .i32⟩
  | .hbm, ⟨17, _⟩ => ⟨S160000, .i32⟩
  | .hbm, ⟨18, _⟩ => ⟨S160000, .i32⟩
  | .hbm, ⟨19, _⟩ => ⟨S160000, .i32⟩
  | .hbm, ⟨20, _⟩ => ⟨S160000x1, .i32⟩
  | .hbm, ⟨21, _⟩ => ⟨S160000x1024, .f32⟩
  | .hbm, ⟨22, _⟩ => ⟨S160000x1, .f32⟩
  | .hbm, ⟨23, _⟩ => ⟨S160000x1024, .f32⟩
  | .hbm, ⟨24, _⟩ => ⟨S160000x1024, .f32⟩
  | .hbm, ⟨25, _⟩ => ⟨S_, .f32⟩
  | .hbm, ⟨26, _⟩ => ⟨S20000x1024, .f32⟩
  | .hbm, ⟨27, _⟩ => ⟨S160000x1, .i32⟩
  | .hbm, ⟨28, _⟩ => ⟨S20000x1024, .f32⟩
  | .hbm, ⟨29, _⟩ => ⟨S20000x4x256, .f32⟩
  | .hbm, ⟨30, _⟩ => ⟨S4x20000x256, .f32⟩
  | .hbm, ⟨31, _⟩ => ⟨S4x20000x256, .f32⟩
  | .hbm, ⟨32, _⟩ => ⟨S4x20000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S256x256, .f32⟩
  | .local _ .vmem, ⟨4, _⟩ => ⟨S256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S5000x256, .f32⟩
  | _, _ => ⟨S4x20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x20000x256_S80000x256 : S4x20000x256.ShapeCasts S80000x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  shapeCasts_S80000x256_S4x20000x256 : S80000x256.ShapeCasts S4x20000x256
  transposes_S4x20000x256_S20000x4x256_1_0_2 : S4x20000x256.Transposes [1, 0, 2] S20000x4x256
  shapeCasts_S20000x4x256_S20000x1024 : S20000x4x256.ShapeCasts S20000x1024
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x1024_0_1 : S160000x1.BroadcastsInDim S160000x1024 (![0, 1] : Fin 2 → Fin S160000x1024.rank)
  bcast_S_S20000x1024 : S_.BroadcastsInDim S20000x1024 (![] : Fin 0 → Fin S20000x1024.rank)
  shapeCasts_S20000x1024_S20000x4x256 : S20000x1024.ShapeCasts S20000x4x256
  transposes_S20000x4x256_S4x20000x256_1_0_2 : S20000x4x256.Transposes [1, 0, 2] S4x20000x256
  dot_S5000x256_S256x256_S5000x256_1_0_0_1_n_n_wf : DotDims.WF S5000x256 S256x256 S5000x256 [1] [0] [0] [1] [] []
  gather_S20000x1024_S160000x1_S160000x1024_1_0_n_n_0_1_11024_wf : GatherDims.WF S20000x1024 S160000x1 S160000x1024 [1] [0] [] [0] [] 1 ![1, 1024]
  scatter_S20000x1024_S160000x1_S160000x1024_1_0_0_1_wf : ScatterDims.WF S20000x1024 S160000x1 S160000x1024 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S80000x256.size a
  hwx0_0 : ∀ i : grid0.Coords, EltTy.bits .f32 = 32 ∨ (Rect.block (s := S80000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x256.size a ≤ S80000x256.size a
  hwx0_4 : ∀ i : grid0.Coords, EltTy.bits .f32 = 32 ∨ (Rect.block (s := S80000x256) S5000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S80000x256.size a
  hwx0_5 : ∀ i : grid0.Coords, EltTy.bits .f32 = 32 ∨ (Rect.block (s := S80000x256) S5000x256.size (cc0_transform_5 i) (hinb0_5 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S20000x1024_S160000x1_S160000x1024_1_0_n_n_0_1_11024 : GatherDims S20000x1024 S160000x1 S160000x1024 where
  offsetDims := [1]
  collapsedSliceDims := [0]
  operandBatchingDims := []
  startIndicesBatchingDims := []
  startIndexMap := [0]
  indexVectorDim := 1
  sliceSizes := ![1, 1024]
  wf := gather_S20000x1024_S160000x1_S160000x1024_1_0_n_n_0_1_11024_wf
def scatter_S20000x1024_S160000x1_S160000x1024_1_0_0_1 : ScatterDims S20000x1024 S160000x1 S160000x1024 where
  updateWindowDims := [1]
  insertedWindowDims := [0]
  scatterDimsToOperandDims := [0]
  indexVectorDim := 1
  wf := scatter_S20000x1024_S160000x1_S160000x1024_1_0_0_1_wf

abbrev win0_0 : Pipeline.Window sig grid0 :=
  Pipeline.Window.ofSpec (Memref.whole main_v0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S5000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x20000x256 : Shape := ⟨3, ![4, 20000, 256]⟩
abbrev S160000 : Shape := ⟨1, ![160000]⟩
abbrev S256x256 : Shape := ⟨2, ![256, 256]⟩
abbrev S256 : Shape := ⟨1, ![256]⟩
abbrev S_ : Shape := ⟨0, ![]⟩
abbrev S160000x1 : Shape := ⟨2, ![160000, 1]⟩
abbrev S4x160000x256 : Shape := ⟨3, ![4, 160000, 256]⟩
abbrev S1x160000x1 : Shape := ⟨3, ![1, 160000, 1]⟩
abbrev S20000x256 : Shape := ⟨2, ![20000, 256]⟩
abbrev S1x1x256 : Shape := ⟨3, ![1, 1, 256]⟩

abbrev nBuf : Space → Nat
  | .hbm => 30
  | .vmem => 0
  | .smem => 0
  | _ => 0

abbrev bufTy : (tb : Table) → Fin (tcTables nBuf tb) → BufTy
  | .hbm, ⟨0, _⟩ => ⟨S4x20000x256, .f32⟩
  | .hbm, ⟨1, _⟩ => ⟨S160000, .i32⟩
  | .hbm, ⟨2, _⟩ => ⟨S160000, .i32⟩
  | .hbm, ⟨3, _⟩ => ⟨S160000, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S4x20000x256, .f32⟩
  | .hbm, ⟨8, _⟩ => ⟨S_, .i32⟩
  | .hbm, ⟨9, _⟩ => ⟨S160000, .i32⟩
  | .hbm, ⟨10, _⟩ => ⟨S160000, .i1⟩
  | .hbm, ⟨11, _⟩ => ⟨S_, .i32⟩
  | .hbm, ⟨12, _⟩ => ⟨S160000, .i32⟩
  | .hbm, ⟨13, _⟩ => ⟨S160000, .i32⟩
  | .hbm, ⟨14, _⟩ => ⟨S160000, .i32⟩
  | .hbm, ⟨15, _⟩ => ⟨S160000x1, .i32⟩
  | .hbm, ⟨16, _⟩ => ⟨S4x160000x256, .f32⟩
  | .hbm, ⟨17, _⟩ => ⟨S1x160000x1, .f32⟩
  | .hbm, ⟨18, _⟩ => ⟨S4x160000x256, .f32⟩
  | .hbm, ⟨19, _⟩ => ⟨S4x160000x256, .f32⟩
  | .hbm, ⟨20, _⟩ => ⟨S_, .f32⟩
  | .hbm, ⟨21, _⟩ => ⟨S20000x256, .f32⟩
  | .hbm, ⟨22, _⟩ => ⟨S160000x1, .i32⟩
  | .hbm, ⟨23, _⟩ => ⟨S4x20000x256, .f32⟩
  | .hbm, ⟨24, _⟩ => ⟨S4x20000x256, .f32⟩
  | .hbm, ⟨25, _⟩ => ⟨S4x20000x256, .f32⟩
  | .hbm, ⟨26, _⟩ => ⟨S4x20000x256, .f32⟩
  | .hbm, ⟨27, _⟩ => ⟨S1x1x256, .f32⟩
  | .hbm, ⟨28, _⟩ => ⟨S4x20000x256, .f32⟩
  | .hbm, ⟨29, _⟩ => ⟨S4x20000x256, .f32⟩
  | _, _ => ⟨S4x20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S160000_S160000x1_0 : S160000.BroadcastsInDim S160000x1 (![0] : Fin 1 → Fin S160000x1.rank)
  bcast_S160000_S1x160000x1_1 : S160000.BroadcastsInDim S1x160000x1 (![1] : Fin 1 → Fin S1x160000x1.rank)
  bcast_S1x160000x1_S4x160000x256_0_1_2 : S1x160000x1.BroadcastsInDim S4x160000x256 (![0, 1, 2] : Fin 3 → Fin S4x160000x256.rank)
  bcast_S_S20000x256 : S_.BroadcastsInDim S20000x256 (![] : Fin 0 → Fin S20000x256.rank)
  bcast_S20000x256_S4x20000x256_1_2 : S20000x256.BroadcastsInDim S4x20000x256 (![1, 2] : Fin 2 → Fin S4x20000x256.rank)
  bcast_S256_S1x1x256_2 : S256.BroadcastsInDim S1x1x256 (![2] : Fin 1 → Fin S1x1x256.rank)
  bcast_S1x1x256_S4x20000x256_0_1_2 : S1x1x256.BroadcastsInDim S4x20000x256 (![0, 1, 2] : Fin 3 → Fin S4x20000x256.rank)
  dot_S4x20000x256_S256x256_S4x20000x256_2_0_01_1_n_n_wf : DotDims.WF S4x20000x256 S256x256 S4x20000x256 [2] [0] [0, 1] [1] [] []
  gather_S4x20000x256_S160000x1_S4x160000x256_02_1_n_n_1_1_41256_wf : GatherDims.WF S4x20000x256 S160000x1 S4x160000x256 [0, 2] [1] [] [1] [] 1 ![4, 1, 256]
  scatter_S4x20000x256_S160000x1_S4x160000x256_02_1_1_1_wf : ScatterDims.WF S4x20000x256 S160000x1 S4x160000x256 [0, 2] [1] [1] 1

variable [Facts₀]

def dot_S4x20000x256_S256x256_S4x20000x256_2_0_01_1_n_n : DotDims S4x20000x256 S256x256 S4x20000x256 where
  lhsContracting := [2]
  rhsContracting := [0]
  lhsNonContracting := [0, 1]
  rhsNonContracting := [1]
  lhsBatch := []
  rhsBatch := []
  wf := dot_S4x20000x256_S256x256_S4x20000x256_2_0_01_1_n_n_wf
def gather_S4x20000x256_S160000x1_S4x160000x256_02_1_n_n_1_1_41256 : GatherDims S4x20000x256 S160000x1 S4x160000x256 where
  offsetDims := [0, 2]
  collapsedSliceDims := [1]
  operandBatchingDims := []
  startIndicesBatchingDims := []
  startIndexMap := [1]
  indexVectorDim := 1
  sliceSizes := ![4, 1, 256]
  wf := gather_S4x20000x256_S160000x1_S4x160000x256_02_1_n_n_1_1_41256_wf
def scatter_S4x20000x256_S160000x1_S4x160000x256_02_1_1_1 : ScatterDims S4x20000x256 S160000x1 S4x160000x256 where
  updateWindowDims := [0, 2]
  insertedWindowDims := [1]
  scatterDimsToOperandDims := [1]
  indexVectorDim := 1
  wf := scatter_S4x20000x256_S160000x1_S4x160000x256_02_1_1_1_wf

class Facts : Prop extends Facts₀ where

variable [Facts]
-- ==== Proof.ProjBody.lean ====
/-
  The kernel body on one block of rows, read at an index, over the extended reals.

  One grid point holds a block `x` of 5000 rows of the flattened input (256 features each), both weight matrices
  `w` (256 × 256) and the bias `b` (256). It stores two 5000 × 256 blocks:

    support (p, q) = Σ_k x (p, k) · w₂ (k, q)                      (a matrix product into a zero accumulator)
    dense   (p, q) = (Σ_k x (p, k) · w₁ (k, q)) + b (q)            (the same, plus the bias broadcast down the rows)

  The contraction runs over the single contracted axis, of extent 256, so the product's sum over the contraction
  shape is re-indexed through that one coordinate.
-/
import proofs.«121497_j86466281603623_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.ProjBody

open Cert.KernelIdeal Cert.KernelIdeal.Gen Idealize.ShloMosaic Idealize.ShloMosaic.ValueIdx

/-! ## The product's operand indices -/

theorem lhs_row (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl
theorem lhs_contr (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
theorem rhs_contr (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
theorem rhs_col (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- The block product into a zero accumulator, at `(p, q)`: the sum over the 256 features. -/
theorem blockProduct_apply (x : FVec Ideal S5000x256 .f32) (w : FVec Ideal S256x256 .f32) (p : Fin 5000) (q : Fin 256) :
    matmul dot_S5000x256_S256x256_S5000x256_1_0_0_1_n_n (some .fp32) x w (constant S5000x256 .f32 0x00000000#32) (ix2 p q)
      = ∑ k : Fin 256, x (ix2 p k) * w (ix2 k q) := by
  refine (Ideal.matmul_constant_zero_apply dot_S5000x256_S256x256_S5000x256_1_0_0_1_n_n (some .fp32) x w (ix2 p q)).trans ?_
  rw [← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q)
      ((contrEquiv1 dot_S5000x256_S256x256_S5000x256_1_0_0_1_n_n 256 rfl rfl).symm k) = ix2 p k := funext fun a => Fin.ext (by
    match a with
    | ⟨0, _⟩ => exact lhs_row _ _
    | ⟨1, _⟩ => exact (lhs_contr _ _).trans hk)
  have er : dot_S5000x256_S256x256_S5000x256_1_0_0_1_n_n.rhsIdx (ix2 p q)
      ((contrEquiv1 dot_S5000x256_S256x256_S5000x256_1_0_0_1_n_n 256 rfl rfl).symm k) = ix2 k q := funext fun a => Fin.ext (by
    match a with
    | ⟨0, _⟩ => exact (rhs_contr _ _).trans hk
    | ⟨1, _⟩ => exact rhs_col _ _)
  rw [el, er]

/-! ## The two stored blocks -/

/-- The support block at `(p, q)`. -/
theorem support_apply (x : Vec Ideal S5000x256 .f32) (w2 : Vec Ideal S256x256 .f32) (p : Fin 5000) (q : Fin 256) :
    k0_pay2 (F := Ideal) x w2 (ix2 p q) = ∑ k : Fin 256, x (ix2 p k) * w2 (ix2 k q) := by
  unfold k0_pay2 k0_pay1
  rw [shapeCast_self]
  exact blockProduct_apply x w2 p q

/-- The bias, as a `[1, 256]` row broadcast down the block's rows, at `(p, q)`: the bias at `q`. -/
theorem biasRows_apply (b : Vec Ideal S256 .f32) (p : Fin 5000) (q : Fin 256) :
    broadcastTo S5000x256 (shapeCast S1x256 b shapeCasts_S256_S1x256) broadcasts_S1x256_S5000x256 (ix2 p q) = b (ix1 q) := by
  refine (broadcastTo_apply (shapeCast S1x256 b shapeCasts_S256_S1x256) broadcasts_S1x256_S5000x256 (ix2 p q)
    (ix2 (0 : Fin 1) q) (fun a => ?_)).trans ?_
  · match a with
    | ⟨0, _⟩ => show (0 : Nat) = if (1 : Nat) = 1 then 0 else _; rw [if_pos rfl]
    | ⟨1, _⟩ => show q.val = if (256 : Nat) = 1 then 0 else q.val; rw [if_neg (by decide)]
  · refine (shapeCast_addUnit_apply ![256] b shapeCasts_S256_S1x256 (ix2 (0 : Fin 1) q)).trans ?_
    exact congrArg b (funext fun a => by match a with | ⟨0, _⟩ => rfl)

/-- The dense block at `(p, q)`. -/
theorem dense_apply (x : Vec Ideal S5000x256 .f32) (w1 : Vec Ideal S256x256 .f32) (b : Vec Ideal S256 .f32)
    (p : Fin 5000) (q : Fin 256) :
    k0_pay3 (F := Ideal) x w1 b (ix2 p q) = (∑ k : Fin 256, x (ix2 p k) * w1 (ix2 k q)) + b (ix1 q) := by
  unfold k0_pay3 k0_pay1
  rw [shapeCast_self]
  exact congrArg₂ (· + ·) (blockProduct_apply x w1 p q) (biasRows_apply b p q)

end Cert.KernelIdeal.ProjBody

end
-- ==== Proof.ProjArrays.lean ====
/-
  From the kernel's blocks to its two whole output arrays, over the extended reals.

  The flattened input `X : [80000, 256]` is cut into 16 blocks of 5000 rows; grid point `t` reads rows
  `5000 t … 5000 t + 4999` and both whole weight matrices and the whole bias, and writes rows `5000 t …` of the two
  outputs. Row `r` of an output therefore depends on row `r` of `X` only:

    support (r, q) = Σ_k X (r, k) · W₂ (k, q)
    dense   (r, q) = (Σ_k X (r, k) · W₁ (k, q)) + bias (q)

  and, the 16 blocks tiling the 80000 rows (row `r` lies in block `r / 5000`), each output array ends holding that
  function of the arrays the region found.
-/
import proofs.«121497_j86466281603623_2_alg».proof.Proof.Gen.KernelIdeal.Frame
import proofs.«121497_j86466281603623_2_alg».proof.Proof.ProjBody
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.ProjArrays

open Cert.KernelIdeal Cert.KernelIdeal.Gen Cert.KernelIdeal.ProjBody Idealize.ShloMosaic.ValueIdx

variable (m : (ℓ : Loc nD τ sig) → Buf (Elt Ideal) ℓ)

/-! ## The two output arrays as functions of the arrays read -/

/-- Row `r` of `X` against column `q` of `W`. -/
def rowDot (X : S80000x256.Idx → EReal) (W : S256x256.Idx → EReal) (r : Fin 80000) (q : Fin 256) : EReal :=
  ∑ k : Fin 256, X (ix2 r k) * W (ix2 k q)

/-- The support array: every row of `X` against `W₂`. -/
def supportArr (X : S80000x256.Idx → EReal) (W2 : S256x256.Idx → EReal) : S80000x256.Idx → EReal :=
  fun i => rowDot X W2 ⟨(i 0).val, idx2_lt0 i⟩ ⟨(i 1).val, idx2_lt1 i⟩

/-- The dense array: every row of `X` against `W₁`, plus the bias. -/
def denseArr (X : S80000x256.Idx → EReal) (W1 : S256x256.Idx → EReal) (b : S256.Idx → EReal) : S80000x256.Idx → EReal :=
  fun i => rowDot X W1 ⟨(i 0).val, idx2_lt0 i⟩ ⟨(i 1).val, idx2_lt1 i⟩ + b (ix1 ⟨(i 1).val, idx2_lt1 i⟩)

theorem supportArr_apply (X : S80000x256.Idx → EReal) (W2 : S256x256.Idx → EReal) (r : Fin 80000) (q : Fin 256) :
    supportArr X W2 (ix2 r q) = rowDot X W2 r q := rfl
theorem denseArr_apply (X : S80000x256.Idx → EReal) (W1 : S256x256.Idx → EReal) (b : S256.Idx → EReal) (r : Fin 80000)
    (q : Fin 256) : denseArr X W1 b (ix2 r q) = rowDot X W1 r q + b (ix1 q) := rfl

/-! ## The windows' index maps over the grid -/

theorem hz2 : (![0, 0] : Fin 2 → Nat) = fun _ => 0 := funext fun a => by fin_cases a <;> rfl
theorem hz1 : (![0] : Fin 1 → Nat) = fun _ => 0 := funext fun a => by fin_cases a; rfl

/-- The row windows (input 0, outputs 4 and 5) sit at block `(t, 0)`; the weights and the bias at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 16 := by
  have h := t.isLt
  have hN : cfg0.N = 16 := N_0
  omega

/-! ## The input blocks at a point, read off the arrays -/

/-- Block `t` of the flattened input: rows `5000 t + p`. -/
theorem xblock_apply (c : Dev nD) (t : Fin cfg0.N) (p : Fin 5000) (k : Fin 256) (r : Fin 80000)
    (hr : r.val = 5000 * t.val + p.val) :
    (iblk m c 0 t : Vec Ideal S5000x256 .f32) (ix2 p k) = (V m c main_v0 : S80000x256.Idx → EReal) (ix2 r k) := by
  obtain ⟨e0, e1, -⟩ := idx_facts t
  unfold iblk
  rw [View.read_apply]
  refine congrArg (V m c main_v0) (funext fun a => Fin.ext ?_)
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- The weight windows hold their whole matrices at every point. -/
theorem w1block_apply (c : Dev nD) (t : Fin cfg0.N) (k q : Fin 256) :
    (iblk m c 1 t : Vec Ideal S256x256 .f32) (ix2 k q) = (V m c main_arg4 : S256x256.Idx → EReal) (ix2 k q) := by
  obtain ⟨-, -, e0, e1, -⟩ := idx_facts t
  unfold iblk
  rw [View.read_apply]
  refine congrArg (V m c main_arg4) (funext fun a => Fin.ext ?_)
  match a with
  | ⟨0, _⟩ => show win0_1.index t (0 : Fin 2) * 256 + 1 * k.val = k.val; rw [e0]; omega
  | ⟨1, _⟩ => show win0_1.index t (1 : Fin 2) * 256 + 1 * q.val = q.val; rw [e1]; omega
theorem w2block_apply (c : Dev nD) (t : Fin cfg0.N) (k q : Fin 256) :
    (iblk m c 2 t : Vec Ideal S256x256 .f32) (ix2 k q) = (V m c main_arg5 : S256x256.Idx → EReal) (ix2 k q) := by
  obtain ⟨-, -, -, -, e0, e1, -⟩ := idx_facts t
  unfold iblk
  rw [View.read_apply]
  refine congrArg (V m c main_arg5) (funext fun a => Fin.ext ?_)
  match a with
  | ⟨0, _⟩ => show win0_2.index t (0 : Fin 2) * 256 + 1 * k.val = k.val; rw [e0]; omega
  | ⟨1, _⟩ => show win0_2.index t (1 : Fin 2) * 256 + 1 * q.val = q.val; rw [e1]; omega
/-- The bias window holds the whole bias at every point. -/
theorem bblock_apply (c : Dev nD) (t : Fin cfg0.N) (q : Fin 256) :
    (iblk m c 3 t : Vec Ideal S256 .f32) (ix1 q) = (V m c main_arg6 : S256.Idx → EReal) (ix1 q) := by
  obtain ⟨-, -, -, -, -, -, e0, -⟩ := idx_facts t
  unfold iblk
  rw [View.read_apply]
  refine congrArg (V m c main_arg6) (funext fun a => Fin.ext ?_)
  match a with
  | ⟨0, _⟩ => show win0_3.index t (0 : Fin 1) * 256 + 1 * q.val = q.val; rw [e0]; omega

/-! ## What each point writes back -/

/-- Element `(p, q)` of block `t` of either output sits at row `5000 t + p`, column `q` of its array. -/
theorem emb4_apply (t : Fin cfg0.N) (p : Fin 5000) (q : Fin 256) (r : Fin 80000) (hr : r.val = 5000 * t.val + p.val) :
    ((cfg0.win 4).blk t).view.emb (ix2 p q) = (ix2 r q : S80000x256.Idx) := by
  obtain ⟨-, -, -, -, -, -, -, e0, e1, -⟩ := idx_facts t
  funext a; apply Fin.ext
  match a with
  | ⟨0, _⟩ => show win0_4.index t (0 : Fin 2) * 5000 + 1 * p.val = r.val; rw [e0, hr]; omega
  | ⟨1, _⟩ => show win0_4.index t (1 : Fin 2) * 256 + 1 * q.val = q.val; rw [e1]; omega
theorem emb5_apply (t : Fin cfg0.N) (p : Fin 5000) (q : Fin 256) (r : Fin 80000) (hr : r.val = 5000 * t.val + p.val) :
    ((cfg0.win 5).blk t).view.emb (ix2 p q) = (ix2 r q : S80000x256.Idx) := by
  obtain ⟨-, -, -, -, -, -, -, -, -, e0, e1⟩ := idx_facts t
  funext a; apply Fin.ext
  match a with
  | ⟨0, _⟩ => show win0_5.index t (0 : Fin 2) * 5000 + 1 * p.val = r.val; rw [e0, hr]; omega
  | ⟨1, _⟩ => show win0_5.index t (1 : Fin 2) * 256 + 1 * q.val = q.val; rw [e1]; omega

/-- Point `t` writes back block `t` of the support array of the arrays the region found. -/
theorem flushed4_eq (c : Dev nD) (t : Fin cfg0.N) :
    (dats m 0 c).flushed 4 t
      = ((cfg0.win 4).blk t).view.read (Elt Ideal) (supportArr (V m c main_v0) (V m c main_arg5)) := by
  show (cfg0.win 4).cut (grid0.coords t) ((dats m 0 c).after 4 t) = _
  rw [after0_4]
  unfold out0_4
  rw [View.canon_unit_zero hz2]
  simp only [View.ld_unit_zero (S := S5000x256) hz2, View.ld_unit_zero (S := S256x256) hz2]
  funext j
  obtain ⟨p, q, rfl⟩ : ∃ (p : Fin 5000) (q : Fin 256), j = ix2 p q := ⟨j 0, j 1, eq_ix2 j⟩
  have hr : 5000 * t.val + p.val < 80000 := by have := t_lt t; omega
  show k0_pay2 (iblk m c 0 t) (iblk m c 2 t) (ix2 p q)
    = supportArr (V m c main_v0) (V m c main_arg5) (((cfg0.win 4).blk t).view.emb (ix2 p q))
  rw [emb4_apply t p q ⟨_, hr⟩ rfl, supportArr_apply]
  refine (support_apply (iblk m c 0 t) (iblk m c 2 t) p q).trans ?_
  unfold rowDot
  refine Finset.sum_congr rfl fun k _ => ?_
  rw [xblock_apply m c t p k ⟨_, hr⟩ rfl, w2block_apply m c t k q]

/-- Point `t` writes back block `t` of the dense array of the arrays the region found. -/
theorem flushed5_eq (c : Dev nD) (t : Fin cfg0.N) :
    (dats m 0 c).flushed 5 t
      = ((cfg0.win 5).blk t).view.read (Elt Ideal) (denseArr (V m c main_v0) (V m c main_arg4) (V m c main_arg6)) := by
  show (cfg0.win 5).cut (grid0.coords t) ((dats m 0 c).after 5 t) = _
  rw [after0_5]
  unfold out0_5
  rw [View.canon_unit_zero hz2]
  simp only [View.ld_unit_zero (S := S5000x256) hz2, View.ld_unit_zero (S := S256x256) hz2, View.ld_unit_zero (S := S256) hz1]
  funext j
  obtain ⟨p, q, rfl⟩ : ∃ (p : Fin 5000) (q : Fin 256), j = ix2 p q := ⟨j 0, j 1, eq_ix2 j⟩
  have hr : 5000 * t.val + p.val < 80000 := by have := t_lt t; omega
  show k0_pay3 (iblk m c 0 t) (iblk m c 1 t) (iblk m c 3 t) (ix2 p q)
    = denseArr (V m c main_v0) (V m c main_arg4) (V m c main_arg6) (((cfg0.win 5).blk t).view.emb (ix2 p q))
  rw [emb5_apply t p q ⟨_, hr⟩ rfl, denseArr_apply]
  refine (dense_apply (iblk m c 0 t) (iblk m c 1 t) (iblk m c 3 t) p q).trans ?_
  unfold rowDot
  rw [bblock_apply m c t q]
  refine congrArg (· + _) (Finset.sum_congr rfl fun k _ => ?_)
  rw [xblock_apply m c t p k ⟨_, hr⟩ rfl, w1block_apply m c t k q]

/-! ## The blocks tile the rows -/

theorem mem_blk4 (t : Fin cfg0.N) (i : S80000x256.Idx) :
    i ∈ ((cfg0.win 4).blk t).view.set ↔ ∀ a : Fin 2, win0_4.index t a * S5000x256.size a ≤ (i a).val
      ∧ (i a).val < win0_4.index t a * S5000x256.size a + S5000x256.size a := by
  show i ∈ ((View.whole main_v1_0).slice (win0_4.rect t)).set ↔ _
  rw [View.set_slice_whole, Rect.mem_set_unit]
  exact Iff.rfl
theorem mem_blk5 (t : Fin cfg0.N) (i : S80000x256.Idx) :
    i ∈ ((cfg0.win 5).blk t).view.set ↔ ∀ a : Fin 2, win0_5.index t a * S5000x256.size a ≤ (i a).val
      ∧ (i a).val < win0_5.index t a * S5000x256.size a + S5000x256.size a := by
  show i ∈ ((View.whole main_v1_1).slice (win0_5.rect t)).set ↔ _
  rw [View.set_slice_whole, Rect.mem_set_unit]
  exact Iff.rfl

/-- Row `r` lies in block `r / 5000`. -/
theorem cover4 (i : S80000x256.Idx) :
    ∃ t : Fin cfg0.N, (cfg0.win 4).flush t = true ∧ i ∈ ((cfg0.win 4).blk t).view.set := by
  have hi0 : (i 0).val < 80000 := (i 0).isLt
  have hi1 : (i 1).val < 256 := (i 1).isLt
  have hN : cfg0.N = 16 := N_0
  obtain ⟨t, ht⟩ : ∃ t : Fin cfg0.N, t.val = (i 0).val / 5000 := ⟨⟨(i 0).val / 5000, by omega⟩, rfl⟩
  obtain ⟨-, -, -, -, -, -, -, e0, e1, -⟩ := idx_facts t
  refine ⟨t, flush0_4 t, ?_⟩
  rw [mem_blk4]
  intro a
  match a with
  | ⟨0, _⟩ =>
    show win0_4.index t (0 : Fin 2) * 5000 ≤ (i 0).val ∧ (i 0).val < win0_4.index t (0 : Fin 2) * 5000 + 5000
    rw [e0]; omega
  | ⟨1, _⟩ =>
    show win0_4.index t (1 : Fin 2) * 256 ≤ (i 1).val ∧ (i 1).val < win0_4.index t (1 : Fin 2) * 256 + 256
    rw [e1]; omega
theorem cover5 (i : S80000x256.Idx) :
    ∃ t : Fin cfg0.N, (cfg0.win 5).flush t = true ∧ i ∈ ((cfg0.win 5).blk t).view.set := by
  have hi0 : (i 0).val < 80000 := (i 0).isLt
  have hi1 : (i 1).val < 256 := (i 1).isLt
  have hN : cfg0.N = 16 := N_0
  obtain ⟨t, ht⟩ : ∃ t : Fin cfg0.N, t.val = (i 0).val / 5000 := ⟨⟨(i 0).val / 5000, by omega⟩, rfl⟩
  obtain ⟨-, -, -, -, -, -, -, -, -, e0, e1⟩ := idx_facts t
  refine ⟨t, flush0_5 t, ?_⟩
  rw [mem_blk5]
  intro a
  match a with
  | ⟨0, _⟩ =>
    show win0_5.index t (0 : Fin 2) * 5000 ≤ (i 0).val ∧ (i 0).val < win0_5.index t (0 : Fin 2) * 5000 + 5000
    rw [e0]; omega
  | ⟨1, _⟩ =>
    show win0_5.index t (1 : Fin 2) * 256 ≤ (i 1).val ∧ (i 1).val < win0_5.index t (1 : Fin 2) * 256 + 256
    rw [e1]; omega

/-! ## The two arrays after the region -/

/-- The flattened input the region finds is the launched input reshaped. -/
theorem V_main_v0 (c : Dev nD) :
    (V m c main_v0 : S80000x256.Idx → EReal)
      = shapeCast S80000x256 (m ((c : Thread nD τ).loc main_arg0)) shapeCasts_S4x20000x256_S80000x256 := by
  show StableHlo.after hostOps0 (fun b => m (c, b)) (Proc.devRef .tc main_v0) = _
  after_results
  rfl

/-- The support array after the region: every row of the flattened input against `weight2`. -/
theorem final4 (c : Dev nD) :
    (dats m 0 c).arrAt 4 cfg0.N
      = supportArr (shapeCast S80000x256 (m ((c : Thread nD τ).loc main_arg0)) shapeCasts_S4x20000x256_S80000x256)
          (m ((c : Thread nD τ).loc main_arg5)) := by
  rw [← V_main_v0 m c, ← V_main_arg5 m c]
  exact (dats m 0 c).arrAt_eq_of_cover 4 _ (fun t _ => flushed4_eq m c t) cover4

/-- The dense array after the region: every row against `weight1`, plus the bias. -/
theorem final5 (c : Dev nD) :
    (dats m 0 c).arrAt 5 cfg0.N
      = denseArr (shapeCast S80000x256 (m ((c : Thread nD τ).loc main_arg0)) shapeCasts_S4x20000x256_S80000x256)
          (m ((c : Thread nD τ).loc main_arg4)) (m ((c : Thread nD τ).loc main_arg6)) := by
  rw [← V_main_v0 m c, ← V_main_arg4 m c, ← V_main_arg6 m c]
  exact (dats m 0 c).arrAt_eq_of_cover 5 _ (fun t _ => flushed5_eq m c t) cover5

end Cert.KernelIdeal.ProjArrays

end
-- ==== Proof.LibEdgeGatherScatter.lean ====
/-
  Gathers and accumulating scatters keyed by ONE integer per edge, in two layouts. Independent of any program.

  An edge list of length `E` carries, per edge `e`, one integer `idx[e, 0]` (the start indices have shape `[E, 1]`).

  1. GATHER.  Rows of a matrix `x : [N, D]` taken at the edges' integers (`x[idx]`: offset axis 1, collapsed axis 0,
     slices `[1, D]`) give `[E, D]`, whose element `(e, c)` is `x` at row `clampRow idx e` — the integer read signed
     and clamped into `[0, N − 1]`, as the gather clamps every start index — and column `c`.  The same integers taken
     along the MIDDLE axis of `x : [B, N, D]` (`x[:, idx, :]`: offset axes 0 and 2, collapsed axis 1, slices
     `[B, 1, D]`) give `[B, E, D]`, whose element `(b, e, o)` is `x` at `(b, clampRow idx e, o)`.

  2. ACCUMULATING SCATTER over the extended reals.  Updates `[E, D]` added into `x : [N, D]` at the rows the edges'
     integers name (window axis 1, inserted axis 0) leave at `(n, c)` the value `x (n, c)` plus the sum, over the edges
     whose integer, read signed, IS `n`, of the update at `(e, c)`; an edge whose integer is outside `[0, N)` lands
     nowhere.  Updates `[B, E, D]` added into `x : [B, N, D]` along the middle axis (window axes 0 and 2, inserted
     axis 1) leave at `(b, n, o)` the value `x (b, n, o)` plus the sum over the same edges of the update at `(b, e, o)`.
     In both layouts the sum ranges over the SAME set of edges, which is what lets a scatter over a matrix whose rows
     pack `B` blocks of width `O` be compared with the scatter over the unpacked `[B, N, O]` array.
-/
import Idealize.ShloMosaic.Lib.ValueIdx
import Idealize.ShloMosaic.PureOps.Ideal

noncomputable section

namespace Cert.Lib

open Idealize.ShloMosaic Idealize.ShloMosaic.ValueIdx

/-! ## The row an edge's integer selects -/

/-- The row of an `N`-row operand that edge `e` reads: its integer `idx[e, 0]`, signed, clamped into `[0, N − 1]`. -/
def clampRow {E w : Nat} (N : Nat) (hN : 0 < N) (idx : IVec ⟨2, ![E, 1]⟩ w) (e : Fin E) : Fin N :=
  ⟨min (idx (ix2 e (0 : Fin 1))).toInt.toNat (N - 1), by omega⟩

/-! ## Gathers -/

section Gather
variable {α : Type}

/-- The dimension numbers of `x[idx]` for an operand `[N, D]`, start indices `[E, 1]` and result `[E, D]`. -/
abbrev rowGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- ROWS OF A MATRIX at `(e, c)`: the operand at row `clampRow idx e`, column `c`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowGatherDims N D E wf) x idx (ix2 e c) = x (ix2 (clampRow N hN idx e) c) := by
  unfold Host.gather
  congr 1
  funext a
  refine Fin.ext ?_
  match a with
  | ⟨0, _⟩ =>
    show (rowGatherDims N D E wf).start (ix2 e c) idx 0 + (rowGatherDims N D E wf).batchCoord (ix2 e c) 0
        + (rowGatherDims N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D E wf).startIndexMap from List.mem_singleton.mpr rfl)]
    have hsi : (rowGatherDims N D E wf).siIdx (ix2 e c) ⟨List.idxOf (0 : Fin 2) (rowGatherDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N D E wf).start (ix2 e c) idx 1 + (rowGatherDims N D E wf).batchCoord (ix2 e c) 1
        + (rowGatherDims N D E wf).offCoord (ix2 e c) 1 = _
    rw [GatherDims.batchCoord_eq_zero _ _ _ List.not_mem_nil]
    unfold GatherDims.start
    rw [dif_neg (show ¬ (1 : Fin 2) ∈ ([0] : List (Fin 2)) from by decide)]
    have hk : (1 : Fin 2) ∈ (rowGatherDims N D E wf).sKept :=
      (GatherDims.mem_sKept _ _).mpr ⟨(show ¬ (1 : Fin 2) ∈ ([0] : List (Fin 2)) from by decide), List.not_mem_nil⟩
    unfold GatherDims.offCoord
    rw [dif_pos hk]
    simp only [Nat.zero_add, Nat.add_zero]
    rfl

/-- The dimension numbers of `x[:, idx, :]` for an operand `[B, N, D]`, start indices `[E, 1]` and result
    `[B, E, D]`. -/
abbrev midGatherDims (B N D E : Nat)
    (wf : GatherDims.WF ⟨3, ![B, N, D]⟩ ⟨2, ![E, 1]⟩ ⟨3, ![B, E, D]⟩ [0, 2] [1] [] [1] [] 1 ![B, 1, D]) :
    GatherDims ⟨3, ![B, N, D]⟩ ⟨2, ![E, 1]⟩ ⟨3, ![B, E, D]⟩ where
  offsetDims := [0, 2]
  collapsedSliceDims := [1]
  operandBatchingDims := []
  startIndicesBatchingDims := []
  startIndexMap := [1]
  indexVectorDim := 1
  sliceSizes := ![B, 1, D]
  wf := wf

/-- THE MIDDLE AXIS OF A RANK-3 ARRAY at `(b, e, o)`: the operand at `(b, clampRow idx e, o)`. -/
theorem gather_mid_apply {B N D E w : Nat} (hN : 0 < N)
    (wf : GatherDims.WF ⟨3, ![B, N, D]⟩ ⟨2, ![E, 1]⟩ ⟨3, ![B, E, D]⟩ [0, 2] [1] [] [1] [] 1 ![B, 1, D])
    (x : (⟨3, ![B, N, D]⟩ : Shape).Idx → α) (idx : IVec ⟨2, ![E, 1]⟩ w) (b : Fin B) (e : Fin E) (o : Fin D) :
    Host.gather (midGatherDims B N D E wf) x idx (ix3 b e o) = x (ix3 b (clampRow N hN idx e) o) := by
  unfold Host.gather
  congr 1
  funext a
  refine Fin.ext ?_
  match a with
  | ⟨0, _⟩ =>
    show (midGatherDims B N D E wf).start (ix3 b e o) idx 0 + (midGatherDims B N D E wf).batchCoord (ix3 b e o) 0
        + (midGatherDims B N D E wf).offCoord (ix3 b e o) 0 = _
    rw [GatherDims.batchCoord_eq_zero _ _ _ List.not_mem_nil]
    unfold GatherDims.start
    rw [dif_neg (show ¬ (0 : Fin 3) ∈ ([1] : List (Fin 3)) from by decide)]
    have hk : (0 : Fin 3) ∈ (midGatherDims B N D E wf).sKept :=
      (GatherDims.mem_sKept _ _).mpr ⟨(show ¬ (0 : Fin 3) ∈ ([1] : List (Fin 3)) from by decide), List.not_mem_nil⟩
    unfold GatherDims.offCoord
    rw [dif_pos hk]
    simp only [Nat.zero_add, Nat.add_zero]
    rfl
  | ⟨1, _⟩ =>
    show (midGatherDims B N D E wf).start (ix3 b e o) idx 1 + (midGatherDims B N D E wf).batchCoord (ix3 b e o) 1
        + (midGatherDims B N D E wf).offCoord (ix3 b e o) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGatherDims B N D E wf).startIndexMap from List.mem_singleton.mpr rfl)]
    have hsi : (midGatherDims B N D E wf).siIdx (ix3 b e o) ⟨List.idxOf (1 : Fin 3) (midGatherDims B N D E wf).startIndexMap,
        List.idxOf_lt_length_iff.2 (List.mem_singleton.mpr rfl)⟩ = ix2 e (0 : Fin 1) := by
      funext b'; refine Fin.ext ?_
      match b' with
      | ⟨0, _⟩ => rfl
      | ⟨1, _⟩ => rfl
    rw [hsi]
    rfl
  | ⟨2, _⟩ =>
    show (midGatherDims B N D E wf).start (ix3 b e o) idx 2 + (midGatherDims B N D E wf).batchCoord (ix3 b e o) 2
        + (midGatherDims B N D E wf).offCoord (ix3 b e o) 2 = _
    rw [GatherDims.batchCoord_eq_zero _ _ _ List.not_mem_nil]
    unfold GatherDims.start
    rw [dif_neg (show ¬ (2 : Fin 3) ∈ ([1] : List (Fin 3)) from by decide)]
    have hk : (2 : Fin 3) ∈ (midGatherDims B N D E wf).sKept :=
      (GatherDims.mem_sKept _ _).mpr ⟨(show ¬ (2 : Fin 3) ∈ ([1] : List (Fin 3)) from by decide), List.not_mem_nil⟩
    unfold GatherDims.offCoord
    rw [dif_pos hk]
    simp only [Nat.zero_add, Nat.add_zero]
    rfl

end Gather

/-! ## Accumulating scatters over the extended reals -/

section Scatter

/-- An operand axis receives a window coordinate exactly when it is not an inserted axis. -/
theorem mem_sKept_iff {s si u : Shape} (d : ScatterDims s si u) (a : Fin s.rank) :
    a ∈ d.sKept ↔ a ∉ d.insertedWindowDims := by
  simp [ScatterDims.sKept, Shape.kept, List.mem_filter, List.mem_finRange]

/-! ### Rows of a matrix -/

/-- The dimension numbers of `x.at[idx].add(upd)` for an operand `[N, D]`, scatter indices `[E, 1]` and updates
    `[E, D]`. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)
  (idx : IVec ⟨2, ![E, 1]⟩ w)

/-- On the row axis the window of update `(e, c)` starts at edge `e`'s integer, read signed, … -/
theorem rowScatter_start0 (e : Fin E) (c : Fin D) :
    (rowScatterDims N D E wf).start (ix2 e c) idx 0 = (idx (ix2 e (0 : Fin 1))).toInt := by
  unfold ScatterDims.start
  rw [dif_pos (show (0 : Fin 2) ∈ (rowScatterDims N D E wf).scatterDimsToOperandDims from List.mem_singleton.mpr rfl)]
  have hsi : (rowScatterDims N D E wf).siIdx (ix2 e c) ⟨List.idxOf (0 : Fin 2) (rowScatterDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at zero. -/
theorem rowScatter_start1 (j : (⟨2, ![E, D]⟩ : Shape).Idx) : (rowScatterDims N D E wf).start j idx 1 = 0 := by
  unfold ScatterDims.start
  rw [dif_neg (show ¬ (1 : Fin 2) ∈ ([0] : List (Fin 2)) from by decide)]

/-- The window coordinate is zero on the row axis … -/
theorem rowScatter_window0 (j : (⟨2, ![E, D]⟩ : Shape).Idx) : (rowScatterDims N D E wf).window j 0 = 0 := by
  unfold ScatterDims.window
  rw [dif_neg (fun h => ((mem_sKept_iff _ _).mp h) (List.mem_singleton.mpr rfl))]

/-- … and the update's column on the column axis. -/
theorem rowScatter_window1 (e : Fin E) (c : Fin D) : (rowScatterDims N D E wf).window (ix2 e c) 1 = c.val := by
  have hk : (1 : Fin 2) ∈ (rowScatterDims N D E wf).sKept :=
    (mem_sKept_iff _ _).mpr (show ¬ (1 : Fin 2) ∈ ([0] : List (Fin 2)) from by decide)
  unfold ScatterDims.window
  rw [dif_pos hk]
  rfl

/-- WHERE UPDATE `(e, c)` LANDS: at `(n, c')` exactly when edge `e`'s integer, read signed, is `n` and the columns agree. -/
theorem rowScatter_resultIdx_iff (e : Fin E) (c : Fin D) (n : Fin N) (c' : Fin D) :
    (rowScatterDims N D E wf).resultIdx? (ix2 e c) idx = some (ix2 n c')
      ↔ (idx (ix2 e (0 : Fin 1))).toInt = (n.val : Int) ∧ c = c' := by
  have h0 : (rowScatterDims N D E wf).start (ix2 e c) idx 0 + ((rowScatterDims N D E wf).window (ix2 e c) 0 : Int)
      = (idx (ix2 e (0 : Fin 1))).toInt := by
    rw [rowScatter_start0, rowScatter_window0]; simp
  have h1 : (rowScatterDims N D E wf).start (ix2 e c) idx 1 + ((rowScatterDims N D E wf).window (ix2 e c) 1 : Int)
      = (c.val : Int) := by
    rw [rowScatter_start1, rowScatter_window1]; simp
  constructor
  · intro hs
    unfold ScatterDims.resultIdx? at hs
    split at hs
    · rename_i h
      have hf := Option.some.inj hs
      have e0 : ((rowScatterDims N D E wf).start (ix2 e c) idx 0 + ((rowScatterDims N D E wf).window (ix2 e c) 0 : Int)).toNat
          = n.val := congrArg Fin.val (congrFun hf 0)
      have e1 : ((rowScatterDims N D E wf).start (ix2 e c) idx 1 + ((rowScatterDims N D E wf).window (ix2 e c) 1 : Int)).toNat
          = c'.val := congrArg Fin.val (congrFun hf 1)
      have b0 : 0 ≤ (rowScatterDims N D E wf).start (ix2 e c) idx 0 + ((rowScatterDims N D E wf).window (ix2 e c) 0 : Int) :=
        (h 0).1
      rw [h0] at e0 b0
      rw [h1] at e1
      exact ⟨by omega, Fin.ext (by omega)⟩
    · exact absurd hs (by simp)
  · rintro ⟨hr, rfl⟩
    have hn : n.val < N := n.isLt
    have hc : c.val < D := c.isLt
    have h : ∀ a, 0 ≤ (rowScatterDims N D E wf).start (ix2 e c) idx a + ((rowScatterDims N D E wf).window (ix2 e c) a : Int)
        ∧ (rowScatterDims N D E wf).start (ix2 e c) idx a + ((rowScatterDims N D E wf).window (ix2 e c) a : Int)
          < ((⟨2, ![N, D]⟩ : Shape).size a : Int) := by
      intro a
      match a with
      | ⟨0, _⟩ =>
        show 0 ≤ (rowScatterDims N D E wf).start (ix2 e c) idx 0 + ((rowScatterDims N D E wf).window (ix2 e c) 0 : Int)
          ∧ (rowScatterDims N D E wf).start (ix2 e c) idx 0 + ((rowScatterDims N D E wf).window (ix2 e c) 0 : Int) < (N : Int)
        rw [h0, hr]; omega
      | ⟨1, _⟩ =>
        show 0 ≤ (rowScatterDims N D E wf).start (ix2 e c) idx 1 + ((rowScatterDims N D E wf).window (ix2 e c) 1 : Int)
          ∧ (rowScatterDims N D E wf).start (ix2 e c) idx 1 + ((rowScatterDims N D E wf).window (ix2 e c) 1 : Int) < (D : Int)
        rw [h1]; omega
    unfold ScatterDims.resultIdx?
    rw [dif_pos h]
    refine congrArg some (funext fun a => Fin.ext ?_)
    match a with
    | ⟨0, _⟩ =>
      show ((rowScatterDims N D E wf).start (ix2 e c) idx 0 + ((rowScatterDims N D E wf).window (ix2 e c) 0 : Int)).toNat = n.val
      rw [h0, hr]; omega
    | ⟨1, _⟩ =>
      show ((rowScatterDims N D E wf).start (ix2 e c) idx 1 + ((rowScatterDims N D E wf).window (ix2 e c) 1 : Int)).toNat = c.val
      rw [h1]; omega

/-- ROWS ACCUMULATED INTO A MATRIX at `(n, c)`: the operand there plus the updates `(e, c)` of the edges whose integer
    is `n`. -/
theorem scatterAdd_rows_apply (x : (⟨2, ![N, D]⟩ : Shape).Idx → EReal) (upd : (⟨2, ![E, D]⟩ : Shape).Idx → EReal)
    (n : Fin N) (c : Fin D) :
    Ideal.hostScatterAdd (rowScatterDims N D E wf) x idx upd (ix2 n c)
      = x (ix2 n c) + ∑ e ∈ Finset.univ.filter (fun e : Fin E => (idx (ix2 e (0 : Fin 1))).toInt = (n.val : Int)),
          upd (ix2 e c) := by
  unfold Ideal.hostScatterAdd
  refine congrArg (x (ix2 n c) + ·) ?_
  have key : ∀ j : (⟨2, ![E, D]⟩ : Shape).Idx, (rowScatterDims N D E wf).resultIdx? j idx = some (ix2 n c) →
      (idx (ix2 (j 0 : Fin E) (0 : Fin 1))).toInt = (n.val : Int) ∧ ix2 (j 0 : Fin E) c = j := by
    intro j hj
    obtain ⟨e, c', rfl⟩ : ∃ (e : Fin E) (c' : Fin D), j = ix2 e c' := ⟨j 0, j 1, eq_ix2 j⟩
    obtain ⟨hr, rfl⟩ := (rowScatter_resultIdx_iff wf idx e c' n c).mp hj
    exact ⟨hr, rfl⟩
  refine Finset.sum_nbij' (fun j => (j 0 : Fin E)) (fun e => ix2 e c) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (rowScatter_resultIdx_iff wf idx e c n c).mpr ⟨(Finset.mem_filter.mp he).2, rfl⟩⟩
  · intro j hj
    exact (key j (Finset.mem_filter.mp hj).2).2
  · intro e _
    rfl
  · intro j hj
    exact congrArg upd (key j (Finset.mem_filter.mp hj).2).2.symm

end Rows

/-! ### The middle axis of a rank-3 array -/

/-- The dimension numbers of `x.at[:, idx, :].add(upd)` for an operand `[B, N, D]`, scatter indices `[E, 1]` and
    updates `[B, E, D]`. -/
abbrev midScatterDims (B N D E : Nat)
    (wf : ScatterDims.WF ⟨3, ![B, N, D]⟩ ⟨2, ![E, 1]⟩ ⟨3, ![B, E, D]⟩ [0, 2] [1] [1] 1) :
    ScatterDims ⟨3, ![B, N, D]⟩ ⟨2, ![E, 1]⟩ ⟨3, ![B, E, D]⟩ where
  updateWindowDims := [0, 2]
  insertedWindowDims := [1]
  scatterDimsToOperandDims := [1]
  indexVectorDim := 1
  wf := wf

section Mid
variable {B N D E w : Nat} (wf : ScatterDims.WF ⟨3, ![B, N, D]⟩ ⟨2, ![E, 1]⟩ ⟨3, ![B, E, D]⟩ [0, 2] [1] [1] 1)
  (idx : IVec ⟨2, ![E, 1]⟩ w)

/-- On the middle axis the window of update `(b, e, o)` starts at edge `e`'s integer, read signed, … -/
theorem midScatter_start1 (b : Fin B) (e : Fin E) (o : Fin D) :
    (midScatterDims B N D E wf).start (ix3 b e o) idx 1 = (idx (ix2 e (0 : Fin 1))).toInt := by
  unfold ScatterDims.start
  rw [dif_pos (show (1 : Fin 3) ∈ (midScatterDims B N D E wf).scatterDimsToOperandDims from List.mem_singleton.mpr rfl)]
  have hsi : (midScatterDims B N D E wf).siIdx (ix3 b e o) ⟨List.idxOf (1 : Fin 3) (midScatterDims B N D E wf).scatterDimsToOperandDims,
      List.idxOf_lt_length_iff.2 (List.mem_singleton.mpr rfl)⟩ = ix2 e (0 : Fin 1) := by
    funext b'; refine Fin.ext ?_
    match b' with
    | ⟨0, _⟩ => rfl
    | ⟨1, _⟩ => rfl
  rw [hsi]

/-- … and on the outer axes at zero. -/
theorem midScatter_start0 (j : (⟨3, ![B, E, D]⟩ : Shape).Idx) : (midScatterDims B N D E wf).start j idx 0 = 0 := by
  unfold ScatterDims.start
  rw [dif_neg (show ¬ (0 : Fin 3) ∈ ([1] : List (Fin 3)) from by decide)]
theorem midScatter_start2 (j : (⟨3, ![B, E, D]⟩ : Shape).Idx) : (midScatterDims B N D E wf).start j idx 2 = 0 := by
  unfold ScatterDims.start
  rw [dif_neg (show ¬ (2 : Fin 3) ∈ ([1] : List (Fin 3)) from by decide)]

/-- The window coordinates are the update's outer coordinates, and zero on the middle axis. -/
theorem midScatter_window0 (b : Fin B) (e : Fin E) (o : Fin D) : (midScatterDims B N D E wf).window (ix3 b e o) 0 = b.val := by
  have hk : (0 : Fin 3) ∈ (midScatterDims B N D E wf).sKept :=
    (mem_sKept_iff _ _).mpr (show ¬ (0 : Fin 3) ∈ ([1] : List (Fin 3)) from by decide)
  unfold ScatterDims.window
  rw [dif_pos hk]
  rfl
theorem midScatter_window1 (j : (⟨3, ![B, E, D]⟩ : Shape).Idx) : (midScatterDims B N D E wf).window j 1 = 0 := by
  unfold ScatterDims.window
  rw [dif_neg (fun h => ((mem_sKept_iff _ _).mp h) (List.mem_singleton.mpr rfl))]
theorem midScatter_window2 (b : Fin B) (e : Fin E) (o : Fin D) : (midScatterDims B N D E wf).window (ix3 b e o) 2 = o.val := by
  have hk : (2 : Fin 3) ∈ (midScatterDims B N D E wf).sKept :=
    (mem_sKept_iff _ _).mpr (show ¬ (2 : Fin 3) ∈ ([1] : List (Fin 3)) from by decide)
  unfold ScatterDims.window
  rw [dif_pos hk]
  rfl

/-- WHERE UPDATE `(b, e, o)` LANDS: at `(b', n, o')` exactly when edge `e`'s integer, read signed, is `n` and the outer
    coordinates agree. -/
theorem midScatter_resultIdx_iff (b : Fin B) (e : Fin E) (o : Fin D) (b' : Fin B) (n : Fin N) (o' : Fin D) :
    (midScatterDims B N D E wf).resultIdx? (ix3 b e o) idx = some (ix3 b' n o')
      ↔ (idx (ix2 e (0 : Fin 1))).toInt = (n.val : Int) ∧ b = b' ∧ o = o' := by
  have h0 : (midScatterDims B N D E wf).start (ix3 b e o) idx 0 + ((midScatterDims B N D E wf).window (ix3 b e o) 0 : Int)
      = (b.val : Int) := by
    rw [midScatter_start0, midScatter_window0]; simp
  have h1 : (midScatterDims B N D E wf).start (ix3 b e o) idx 1 + ((midScatterDims B N D E wf).window (ix3 b e o) 1 : Int)
      = (idx (ix2 e (0 : Fin 1))).toInt := by
    rw [midScatter_start1, midScatter_window1]; simp
  have h2 : (midScatterDims B N D E wf).start (ix3 b e o) idx 2 + ((midScatterDims B N D E wf).window (ix3 b e o) 2 : Int)
      = (o.val : Int) := by
    rw [midScatter_start2, midScatter_window2]; simp
  constructor
  · intro hs
    unfold ScatterDims.resultIdx? at hs
    split at hs
    · rename_i h
      have hf := Option.some.inj hs
      have e0 : ((midScatterDims B N D E wf).start (ix3 b e o) idx 0 + ((midScatterDims B N D E wf).window (ix3 b e o) 0 : Int)).toNat
          = b'.val := congrArg Fin.val (congrFun hf 0)
      have e1 : ((midScatterDims B N D E wf).start (ix3 b e o) idx 1 + ((midScatterDims B N D E wf).window (ix3 b e o) 1 : Int)).toNat
          = n.val := congrArg Fin.val (congrFun hf 1)
      have e2 : ((midScatterDims B N D E wf).start (ix3 b e o) idx 2 + ((midScatterDims B N D E wf).window (ix3 b e o) 2 : Int)).toNat
          = o'.val := congrArg Fin.val (congrFun hf 2)
      have b1 : 0 ≤ (midScatterDims B N D E wf).start (ix3 b e o) idx 1 + ((midScatterDims B N D E wf).window (ix3 b e o) 1 : Int) :=
        (h 1).1
      rw [h0] at e0
      rw [h1] at e1 b1
      rw [h2] at e2
      exact ⟨by omega, Fin.ext (by omega), Fin.ext (by omega)⟩
    · exact absurd hs (by simp)
  · rintro ⟨hr, rfl, rfl⟩
    have hb : b.val < B := b.isLt
    have hn : n.val < N := n.isLt
    have ho : o.val < D := o.isLt
    have h : ∀ a, 0 ≤ (midScatterDims B N D E wf).start (ix3 b e o) idx a + ((midScatterDims B N D E wf).window (ix3 b e o) a : Int)
        ∧ (midScatterDims B N D E wf).start (ix3 b e o) idx a + ((midScatterDims B N D E wf).window (ix3 b e o) a : Int)
          < ((⟨3, ![B, N, D]⟩ : Shape).size a : Int) := by
      intro a
      match a with
      | ⟨0, _⟩ =>
        show 0 ≤ (midScatterDims B N D E wf).start (ix3 b e o) idx 0 + ((midScatterDims B N D E wf).window (ix3 b e o) 0 : Int)
          ∧ (midScatterDims B N D E wf).start (ix3 b e o) idx 0 + ((midScatterDims B N D E wf).window (ix3 b e o) 0 : Int) < (B : Int)
        rw [h0]; omega
      | ⟨1, _⟩ =>
        show 0 ≤ (midScatterDims B N D E wf).start (ix3 b e o) idx 1 + ((midScatterDims B N D E wf).window (ix3 b e o) 1 : Int)
          ∧ (midScatterDims B N D E wf).start (ix3 b e o) idx 1 + ((midScatterDims B N D E wf).window (ix3 b e o) 1 : Int) < (N : Int)
        rw [h1, hr]; omega
      | ⟨2, _⟩ =>
        show 0 ≤ (midScatterDims B N D E wf).start (ix3 b e o) idx 2 + ((midScatterDims B N D E wf).window (ix3 b e o) 2 : Int)
          ∧ (midScatterDims B N D E wf).start (ix3 b e o) idx 2 + ((midScatterDims B N D E wf).window (ix3 b e o) 2 : Int) < (D : Int)
        rw [h2]; omega
    unfold ScatterDims.resultIdx?
    rw [dif_pos h]
    refine congrArg some (funext fun a => Fin.ext ?_)
    match a with
    | ⟨0, _⟩ =>
      show ((midScatterDims B N D E wf).start (ix3 b e o) idx 0 + ((midScatterDims B N D E wf).window (ix3 b e o) 0 : Int)).toNat = b.val
      rw [h0]; omega
    | ⟨1, _⟩ =>
      show ((midScatterDims B N D E wf).start (ix3 b e o) idx 1 + ((midScatterDims B N D E wf).window (ix3 b e o) 1 : Int)).toNat = n.val
      rw [h1, hr]; omega
    | ⟨2, _⟩ =>
      show ((midScatterDims B N D E wf).start (ix3 b e o) idx 2 + ((midScatterDims B N D E wf).window (ix3 b e o) 2 : Int)).toNat = o.val
      rw [h2]; omega

/-- THE MIDDLE AXIS ACCUMULATED at `(b, n, o)`: the operand there plus the updates `(b, e, o)` of the edges whose
    integer is `n` — the same edges as in the matrix layout. -/
theorem scatterAdd_mid_apply (x : (⟨3, ![B, N, D]⟩ : Shape).Idx → EReal) (upd : (⟨3, ![B, E, D]⟩ : Shape).Idx → EReal)
    (b : Fin B) (n : Fin N) (o : Fin D) :
    Ideal.hostScatterAdd (midScatterDims B N D E wf) x idx upd (ix3 b n o)
      = x (ix3 b n o) + ∑ e ∈ Finset.univ.filter (fun e : Fin E => (idx (ix2 e (0 : Fin 1))).toInt = (n.val : Int)),
          upd (ix3 b e o) := by
  unfold Ideal.hostScatterAdd
  refine congrArg (x (ix3 b n o) + ·) ?_
  have key : ∀ j : (⟨3, ![B, E, D]⟩ : Shape).Idx, (midScatterDims B N D E wf).resultIdx? j idx = some (ix3 b n o) →
      (idx (ix2 (j 1 : Fin E) (0 : Fin 1))).toInt = (n.val : Int) ∧ ix3 b (j 1 : Fin E) o = j := by
    intro j hj
    obtain ⟨b', e, o', rfl⟩ : ∃ (b' : Fin B) (e : Fin E) (o' : Fin D), j = ix3 b' e o' := ⟨j 0, j 1, j 2, eq_ix3 j⟩
    obtain ⟨hr, rfl, rfl⟩ := (midScatter_resultIdx_iff wf idx b' e o' b n o).mp hj
    exact ⟨hr, rfl⟩
  refine Finset.sum_nbij' (fun j => (j 1 : Fin E)) (fun e => ix3 b e o) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (midScatter_resultIdx_iff wf idx b e o b n o).mpr ⟨(Finset.mem_filter.mp he).2, rfl, rfl⟩⟩
  · intro j hj
    exact (key j (Finset.mem_filter.mp hj).2).2
  · intro e _
    rfl
  · intro j hj
    exact congrArg upd (key j (Finset.mem_filter.mp hj).2).2.symm

end Mid

end Scatter

end Cert.Lib

end
-- ==== Proof.EdgeSpec.lean ====
/-
  What both programs compute, as ONE function of the seven arguments, over the extended reals.

  Arguments: node features `x : [4, 20000, 256]` (batch, node, feature); an edge list of 160000 edges given by three
  arrays — destination `rows`, source `cols` (integers) and weight `vals` —; two weight matrices `w1`, `w2 : [256, 256]`
  and a bias `[256]`.

    sup w (b, n, o)  = Σ_k x (b, n, k) · w (k, o)                          a dense projection of node n
    node e           = cols[e], counted from the end when negative, clamped into [0, 19999]   the node edge e reads
    msg (b, e, o)    = sup w2 (b, node e, o) · vals[e]                      the message along edge e
    agg (b, n, o)    = 0 + Σ_{e : rows[e] = n} msg (b, e, o)                messages summed at their destination
    out (b, n, o)    = (agg (b, n, o) + sup w1 (b, n, o)) + bias[o]

  An edge whose destination is outside [0, 20000) is dropped (it equals no `n`). The zero is written as the float
  word both programs print, never evaluated. The edge integers reach a gather or a scatter as a column `[160000, 1]`;
  the source integers pass first through "add 20000 if negative" — the same integer operations in both programs, kept
  as one opaque function here.
-/
import Idealize.ShloMosaic.Lib.ValueIdx
import Idealize.ShloMosaic.PureOps.Ideal
import proofs.«121497_j86466281603623_2_alg».proof.Proof.LibEdgeGatherScatter

noncomputable section

namespace Cert.EdgeSpec

open Idealize.ShloMosaic Idealize.ShloMosaic.ValueIdx Cert.Lib

abbrev SX : Shape := ⟨3, ![4, 20000, 256]⟩
abbrev SW : Shape := ⟨2, ![256, 256]⟩
abbrev SBias : Shape := ⟨1, ![256]⟩
abbrev SE : Shape := ⟨1, ![160000]⟩
abbrev SE1 : Shape := ⟨2, ![160000, 1]⟩
abbrev S0 : Shape := ⟨0, ![]⟩

/-- An edge array's integers as a column of start indices. -/
def asColumn (a : IVec SE 32) : IVec SE1 32 := broadcastInDim SE1 ![0] (by decide) a

/-- A negative integer counts from the end: 20000 is added to it. -/
def fromEnd (a : IVec SE 32) : IVec SE 32 :=
  select (cmpi .slt a (broadcastInDim SE ![] (by decide) (constantI S0 32 0#32)))
    (addi a (broadcastInDim SE ![] (by decide) (constantI S0 32 20000#32))) a

/-- The zero an accumulation starts from, as the printed float word. -/
def Z : EReal := Ideal.ofBits .f32 0x00000000#32

/-- The dense projection of node `n` of batch `b` through `w`, at feature `o`. -/
def sup (x : SX.Idx → EReal) (w : SW.Idx → EReal) (b : Fin 4) (n : Fin 20000) (o : Fin 256) : EReal :=
  ∑ k : Fin 256, x (ix3 b n k) * w (ix2 k o)

/-- The node edge `e` reads. -/
def node (cols : IVec SE 32) (e : Fin 160000) : Fin 20000 := clampRow 20000 (by decide) (asColumn (fromEnd cols)) e

/-- The edges whose destination is node `n`. -/
def edgesInto (rows : IVec SE 32) (n : Fin 20000) : Finset (Fin 160000) :=
  Finset.univ.filter fun e : Fin 160000 => (asColumn rows (ix2 e (0 : Fin 1))).toInt = (n.val : Int)

/-- The message along edge `e`. -/
def msg (x : SX.Idx → EReal) (w2 : SW.Idx → EReal) (cols : IVec SE 32) (vals : SE.Idx → EReal)
    (b : Fin 4) (e : Fin 160000) (o : Fin 256) : EReal :=
  sup x w2 b (node cols e) o * vals (ix1 e)

/-- The messages summed at their destination. -/
def agg (x : SX.Idx → EReal) (w2 : SW.Idx → EReal) (rows cols : IVec SE 32) (vals : SE.Idx → EReal)
    (b : Fin 4) (n : Fin 20000) (o : Fin 256) : EReal :=
  Z + ∑ e ∈ edgesInto rows n, msg x w2 cols vals b e o

/-- THE RESULT at `(b, n, o)`. -/
def outAt (x : SX.Idx → EReal) (rows cols : IVec SE 32) (vals : SE.Idx → EReal) (w1 w2 : SW.Idx → EReal)
    (bias : SBias.Idx → EReal) (b : Fin 4) (n : Fin 20000) (o : Fin 256) : EReal :=
  (agg x w2 rows cols vals b n o + sup x w1 b n o) + bias (ix1 o)

/-- The result array. -/
def out (x : SX.Idx → EReal) (rows cols : IVec SE 32) (vals : SE.Idx → EReal) (w1 w2 : SW.Idx → EReal)
    (bias : SBias.Idx → EReal) : SX.Idx → EReal :=
  fun i => outAt x rows cols vals w1 w2 bias ⟨(i 0).val, (i 0).isLt⟩ ⟨(i 1).val, (i 1).isLt⟩ ⟨(i 2).val, (i 2).isLt⟩

theorem out_apply (x : SX.Idx → EReal) (rows cols : IVec SE 32) (vals : SE.Idx → EReal) (w1 w2 : SW.Idx → EReal)
    (bias : SBias.Idx → EReal) (b : Fin 4) (n : Fin 20000) (o : Fin 256) :
    out x rows cols vals w1 w2 bias (ix3 b n o) = outAt x rows cols vals w1 w2 bias b n o := rfl

end Cert.EdgeSpec

end
-- ==== Proof.BatchLayouts.lean ====
/-
  The relayouts between the batched array `[4, 20000, 256]` and its two flat forms, read at coordinates. Independent
  of any program (only the literal shapes are this kernel's).

  * FLATTEN `[4, 20000, 256] → [80000, 256]` and back: batch `b`, node `n` is row `20000 b + n`.
  * PACK `[20000, 4, 256] → [20000, 1024]` and back: batch `b`, feature `o` is lane `256 b + o` of a node's row.
  * SWAP of the first two axes, `[4, 20000, 256] ↔ [20000, 4, 256]`.

  Each is a reshape (equal row-major positions) or a transposition (coordinates permuted), so each reads its operand at
  one index given by arithmetic on the coordinates.
-/
import Idealize.ShloMosaic.Lib.Pipeline.Value
import Idealize.ShloMosaic.Lib.ValueIdx

noncomputable section

namespace Cert.BatchLayouts

open Idealize.ShloMosaic Idealize.ShloMosaic.ValueIdx

abbrev SB : Shape := ⟨3, ![4, 20000, 256]⟩
abbrev SN : Shape := ⟨3, ![20000, 4, 256]⟩
abbrev SFlat : Shape := ⟨2, ![80000, 256]⟩
abbrev SPack : Shape := ⟨2, ![20000, 1024]⟩

/-- Row `20000 b + n` of the flat form. -/
def flatRow (b : Fin 4) (n : Fin 20000) : Fin 80000 := ⟨20000 * b.val + n.val, by omega⟩
/-- Lane `256 b + o` of a packed row. -/
def packLane (b : Fin 4) (o : Fin 256) : Fin 1024 := ⟨256 * b.val + o.val, by omega⟩

section
variable {α : Type}

/-- The flat form at row `20000 b + n` reads the batched array at `(b, n, ·)`. -/
theorem flatten_apply (x : SB.Idx → α) (h : SB.ShapeCasts SFlat) (b : Fin 4) (n : Fin 20000) (k : Fin 256) :
    shapeCast SFlat x h (ix2 (flatRow b n) k) = x (ix3 b n k) := by
  refine shapeCast_apply x h (ix2 (flatRow b n) k) (ix3 b n k) ?_
  rw [Shape.rowMajor_val_three, Shape.rowMajor_val_two]
  show (b.val * 20000 + n.val) * 256 + k.val = (20000 * b.val + n.val) * 256 + k.val
  omega

/-- The batched form at `(b, n, ·)` reads the flat array at row `20000 b + n`. -/
theorem unflatten_apply (y : SFlat.Idx → α) (h : SFlat.ShapeCasts SB) (b : Fin 4) (n : Fin 20000) (o : Fin 256) :
    shapeCast SB y h (ix3 b n o) = y (ix2 (flatRow b n) o) := by
  refine shapeCast_apply y h (ix3 b n o) (ix2 (flatRow b n) o) ?_
  rw [Shape.rowMajor_val_three, Shape.rowMajor_val_two]
  show (20000 * b.val + n.val) * 256 + o.val = (b.val * 20000 + n.val) * 256 + o.val
  omega

/-- A packed row at lane `256 b + o` reads the node-major array at `(n, b, o)`. -/
theorem pack_apply (z : SN.Idx → α) (h : SN.ShapeCasts SPack) (n : Fin 20000) (b : Fin 4) (o : Fin 256) :
    shapeCast SPack z h (ix2 n (packLane b o)) = z (ix3 n b o) := by
  refine shapeCast_apply z h (ix2 n (packLane b o)) (ix3 n b o) ?_
  rw [Shape.rowMajor_val_three, Shape.rowMajor_val_two]
  show (n.val * 4 + b.val) * 256 + o.val = n.val * 1024 + (256 * b.val + o.val)
  omega

/-- The node-major array at `(n, b, o)` reads the packed row at lane `256 b + o`. -/
theorem unpack_apply (u : SPack.Idx → α) (h : SPack.ShapeCasts SN) (n : Fin 20000) (b : Fin 4) (o : Fin 256) :
    shapeCast SN u h (ix3 n b o) = u (ix2 n (packLane b o)) := by
  refine shapeCast_apply u h (ix3 n b o) (ix2 n (packLane b o)) ?_
  rw [Shape.rowMajor_val_three, Shape.rowMajor_val_two]
  show n.val * 1024 + (256 * b.val + o.val) = (n.val * 4 + b.val) * 256 + o.val
  omega

/-- Batch-major to node-major: `(n, b, o)` reads `(b, n, o)`. -/
theorem toNodeMajor_apply (x : SB.Idx → α) (h : SB.Transposes [1, 0, 2] SN) (n : Fin 20000) (b : Fin 4) (o : Fin 256) :
    transpose SN [1, 0, 2] x h (ix3 n b o) = x (ix3 b n o) := by
  refine transpose_apply [1, 0, 2] x h (ix3 n b o) (ix3 b n o) (fun a => ?_)
  match a with
  | ⟨0, _⟩ => rfl
  | ⟨1, _⟩ => rfl
  | ⟨2, _⟩ => rfl

/-- Node-major to batch-major: `(b, n, o)` reads `(n, b, o)`. -/
theorem toBatchMajor_apply (z : SN.Idx → α) (h : SN.Transposes [1, 0, 2] SB) (b : Fin 4) (n : Fin 20000) (o : Fin 256) :
    transpose SB [1, 0, 2] z h (ix3 b n o) = z (ix3 n b o) := by
  refine transpose_apply [1, 0, 2] z h (ix3 b n o) (ix3 n b o) (fun a => ?_)
  match a with
  | ⟨0, _⟩ => rfl
  | ⟨1, _⟩ => rfl
  | ⟨2, _⟩ => rfl

end

end Cert.BatchLayouts

end
-- ==== Proof.KernelTail.lean ====
/-
  The kernel program's lines after the region, read at an index, over the extended reals.

  The region leaves two flat arrays `[80000, 256]`: the support `S` and the dense part `D` (ProjArrays). The lines
  after it re-lay `S` so that one row per node packs the four batches side by side — flat `[80000, 256]` → batched
  `[4, 20000, 256]` → node-major `[20000, 4, 256]` → packed `[20000, 1024]` —, take each edge's source row whole,
  scale it by the edge's weight, add the rows into a `[20000, 1024]` array of zeros at the edges' destinations, undo
  the relayout, and add `D` (batched). Lane `256 b + o` of node `n`'s packed row is `S` at flat row `20000 b + n`,
  column `o`, so at `(b, n, o)`:

    tail (b, n, o) = (0 + Σ_{e : rows[e] = n} S (20000 b + node e, o) · vals[e]) + D (20000 b + n, o).
-/
import proofs.«121497_j86466281603623_2_alg».proof.Proof.Gen.KernelIdeal
import proofs.«121497_j86466281603623_2_alg».proof.Proof.EdgeSpec
import proofs.«121497_j86466281603623_2_alg».proof.Proof.BatchLayouts
import proofs.«121497_j86466281603623_2_alg».proof.Proof.LibEdgeGatherScatter
import Idealize.ShloMosaic.Lib.Pipeline.Value

noncomputable section

namespace Cert.KernelIdeal.KernelTail

open Cert.KernelIdeal Cert.KernelIdeal.Gen Idealize.ShloMosaic Idealize.ShloMosaic.ValueIdx
open Cert.EdgeSpec Cert.BatchLayouts Cert.Lib

/-- The support re-laid as one packed row per node. -/
def packed (S : S80000x256.Idx → EReal) : S20000x1024.Idx → EReal :=
  shapeCast S20000x1024
    (transpose S20000x4x256 [1, 0, 2] (shapeCast S4x20000x256 S shapeCasts_S80000x256_S4x20000x256)
      transposes_S4x20000x256_S20000x4x256_1_0_2)
    shapeCasts_S20000x4x256_S20000x1024

/-- The source integers as the gather receives them. -/
def colStart (cols : IVec S160000 32) : IVec S160000x1 32 :=
  broadcastInDim S160000x1 ![0] bcast_S160000_S160000x1_0
    (select (cmpi .slt cols (broadcastInDim S160000 ![] bcast_S_S160000 (constantI S_ 32 0#32)))
      (addi cols (broadcastInDim S160000 ![] bcast_S_S160000 (constantI S_ 32 20000#32))) cols)

/-- The gathered rows scaled by the edge weights. -/
def scaledRows (S : S80000x256.Idx → EReal) (cols : IVec S160000 32) (vals : S160000.Idx → EReal) :
    S160000x1024.Idx → EReal :=
  mulf (F := Ideal) (φ := .f32)
    (Host.gather gather_S20000x1024_S160000x1_S160000x1024_1_0_n_n_0_1_11024 (packed S) (colStart cols))
    (broadcastInDim S160000x1024 ![0, 1] bcast_S160000x1_S160000x1024_0_1
      (broadcastInDim S160000x1 ![0] bcast_S160000_S160000x1_0 vals))

/-- The rows added at their destinations, into zeros. -/
def summedRows (S : S80000x256.Idx → EReal) (rows cols : IVec S160000 32) (vals : S160000.Idx → EReal) :
    S20000x1024.Idx → EReal :=
  Host.scatterAdd (F := Ideal) (φ := .f32) scatter_S20000x1024_S160000x1_S160000x1024_1_0_0_1
    (broadcastInDim S20000x1024 ![] bcast_S_S20000x1024 (constant (F := Ideal) S_ .f32 0x00000000#32))
    (broadcastInDim S160000x1 ![0] bcast_S160000_S160000x1_0 rows)
    (scaledRows S cols vals)

/-- THE LINES AFTER THE REGION as one function of the two arrays the region wrote and the edge arrays. -/
def tail (S D : S80000x256.Idx → EReal) (rows cols : IVec S160000 32) (vals : S160000.Idx → EReal) :
    S4x20000x256.Idx → EReal :=
  addf (F := Ideal) (φ := .f32)
    (transpose S4x20000x256 [1, 0, 2]
      (shapeCast S20000x4x256 (summedRows S rows cols vals) shapeCasts_S20000x1024_S20000x4x256)
      transposes_S20000x4x256_S4x20000x256_1_0_2)
    (shapeCast S4x20000x256 D shapeCasts_S80000x256_S4x20000x256)

/-! ## Read at an index -/

/-- Lane `256 b + o` of node `n`'s packed row is the support at flat row `20000 b + n`, column `o`. -/
theorem packed_apply (S : S80000x256.Idx → EReal) (n : Fin 20000) (b : Fin 4) (o : Fin 256) :
    packed S (ix2 n (packLane b o)) = S (ix2 (flatRow b n) o) := by
  unfold packed
  refine (pack_apply _ shapeCasts_S20000x4x256_S20000x1024 n b o).trans ?_
  refine (toNodeMajor_apply _ transposes_S4x20000x256_S20000x4x256_1_0_2 n b o).trans ?_
  exact unflatten_apply S shapeCasts_S80000x256_S4x20000x256 b n o

theorem colStart_eq (cols : IVec S160000 32) : colStart cols = asColumn (fromEnd cols) := rfl

/-- A scaled row at `(e, 256 b + o)`: the support at the edge's source node, times the edge's weight. -/
theorem scaledRows_apply (S : S80000x256.Idx → EReal) (cols : IVec S160000 32) (vals : S160000.Idx → EReal)
    (e : Fin 160000) (b : Fin 4) (o : Fin 256) :
    scaledRows S cols vals (ix2 e (packLane b o)) = S (ix2 (flatRow b (node cols e)) o) * vals (ix1 e) := by
  unfold scaledRows
  refine congrArg₂ (fun u v : EReal => u * v) ?_ ?_
  · refine (gather_rows_apply (N := 20000) (D := 1024) (E := 160000) (by decide)
      Facts₀.gather_S20000x1024_S160000x1_S160000x1024_1_0_n_n_0_1_11024_wf (packed S) (colStart cols) e (packLane b o)).trans ?_
    exact packed_apply S _ b o
  · refine (broadcastInDim_apply _ bcast_S160000x1_S160000x1024_0_1 _ (ix2 e (packLane b o)) (ix2 e (0 : Fin 1)) (fun a => ?_)).trans ?_
    · match a with
      | ⟨0, _⟩ => show e.val = if (160000 : Nat) = 1 then 0 else e.val; rw [if_neg (by decide)]
      | ⟨1, _⟩ => show (0 : Nat) = if (1 : Nat) = 1 then 0 else _; rw [if_pos rfl]
    · refine broadcastInDim_apply _ bcast_S160000_S160000x1_0 vals (ix2 e (0 : Fin 1)) (ix1 e) (fun a => ?_)
      match a with
      | ⟨0, _⟩ => show e.val = if (160000 : Nat) = 1 then 0 else e.val; rw [if_neg (by decide)]

/-- The summed rows at `(n, 256 b + o)`. -/
theorem summedRows_apply (S : S80000x256.Idx → EReal) (rows cols : IVec S160000 32) (vals : S160000.Idx → EReal)
    (n : Fin 20000) (b : Fin 4) (o : Fin 256) :
    summedRows S rows cols vals (ix2 n (packLane b o))
      = Z + ∑ e ∈ edgesInto rows n, S (ix2 (flatRow b (node cols e)) o) * vals (ix1 e) := by
  unfold summedRows
  have hd : scatter_S20000x1024_S160000x1_S160000x1024_1_0_0_1
      = rowScatterDims 20000 1024 160000 Facts₀.scatter_S20000x1024_S160000x1_S160000x1024_1_0_0_1_wf := rfl
  rw [hd]
  show Ideal.hostScatterAdd (rowScatterDims 20000 1024 160000 Facts₀.scatter_S20000x1024_S160000x1_S160000x1024_1_0_0_1_wf)
    _ _ _ _ = _
  rw [scatterAdd_rows_apply]
  refine congrArg₂ (fun u v : EReal => u + v) ?_ (Finset.sum_congr rfl fun e _ => scaledRows_apply S cols vals e b o)
  exact broadcastInDim_apply _ bcast_S_S20000x1024 _ (ix2 n (packLane b o)) ix0 (fun a => a.elim0)

/-- THE TAIL at `(b, n, o)`. -/
theorem tail_apply (S D : S80000x256.Idx → EReal) (rows cols : IVec S160000 32) (vals : S160000.Idx → EReal)
    (b : Fin 4) (n : Fin 20000) (o : Fin 256) :
    tail S D rows cols vals (ix3 b n o)
      = (Z + ∑ e ∈ edgesInto rows n, S (ix2 (flatRow b (node cols e)) o) * vals (ix1 e)) + D (ix2 (flatRow b n) o) := by
  unfold tail
  refine congrArg₂ (fun u v : EReal => u + v) ?_ (unflatten_apply D shapeCasts_S80000x256_S4x20000x256 b n o)
  refine (toBatchMajor_apply _ transposes_S20000x4x256_S4x20000x256_1_0_2 b n o).trans ?_
  refine (unpack_apply _ shapeCasts_S20000x1024_S20000x4x256 n b o).trans ?_
  exact summedRows_apply S rows cols vals n b o

end Cert.KernelIdeal.KernelTail

end
-- ==== Proof.KernelValue.lean ====
/-
  The kernel program's result array after the run is the specification's (EdgeSpec).

  After the region the two output arrays hold the support `X · weight2` and the dense part `X · weight1 + bias` of the
  flattened input `X` (ProjArrays); the lines after the region turn them into `tail` (KernelTail). Flat row
  `20000 b + n` of `X` is node `n` of batch `b` of the input, so the support there is `sup weight2 (b, n, ·)` and the
  dense part `sup weight1 (b, n, ·) + bias`. The kernel thus ends at

    (0 + Σ_{e : rows[e] = n} sup weight2 (b, node e, o) · vals[e]) + (sup weight1 (b, n, o) + bias[o]),

  which is the specification's `(agg + sup weight1) + bias` by associativity of addition on the extended reals —
  a law that holds at the infinities too, so no finiteness of the inputs is used.
-/
import proofs.«121497_j86466281603623_2_alg».proof.Proof.Gen.KernelIdeal.Frame
import proofs.«121497_j86466281603623_2_alg».proof.Proof.ProjArrays
import proofs.«121497_j86466281603623_2_alg».proof.Proof.KernelTail
import proofs.«121497_j86466281603623_2_alg».proof.Proof.EdgeSpec
import proofs.«121497_j86466281603623_2_alg».proof.Proof.BatchLayouts
import Idealize.ShloMosaic.Lib.StableHlo.Run
import Idealize.ShloMosaic.Lib.Pipeline.Value

noncomputable section

open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.ProjArrays Cert.KernelIdeal.KernelTail
open Idealize.ShloMosaic.ValueIdx Cert.EdgeSpec Cert.BatchLayouts

variable (m : (ℓ : Loc nD τ sig) → Buf (Elt Ideal) ℓ) (ρ : Dev nD → PrngReg)

/-! ## The tail over the support and the dense part is the specification -/

/-- A flat row of the reshaped input against a weight matrix is the projection of its node. -/
theorem rowDot_flat (x : S4x20000x256.Idx → EReal) (w : S256x256.Idx → EReal) (b : Fin 4) (n : Fin 20000) (o : Fin 256) :
    rowDot (shapeCast S80000x256 x shapeCasts_S4x20000x256_S80000x256) w (flatRow b n) o = sup x w b n o := by
  unfold rowDot sup
  refine Finset.sum_congr rfl fun k _ => ?_
  rw [flatten_apply x shapeCasts_S4x20000x256_S80000x256 b n k]

theorem tail_eq_out (x : S4x20000x256.Idx → EReal) (rows cols : IVec S160000 32) (vals : S160000.Idx → EReal)
    (w1 w2 : S256x256.Idx → EReal) (bias : S256.Idx → EReal) :
    tail (supportArr (shapeCast S80000x256 x shapeCasts_S4x20000x256_S80000x256) w2)
        (denseArr (shapeCast S80000x256 x shapeCasts_S4x20000x256_S80000x256) w1 bias) rows cols vals
      = out x rows cols vals w1 w2 bias := by
  funext i
  obtain ⟨b, n, o, rfl⟩ : ∃ (b : Fin 4) (n : Fin 20000) (o : Fin 256), i = ix3 b n o := ⟨i 0, i 1, i 2, eq_ix3 i⟩
  rw [tail_apply, out_apply]
  unfold outAt agg msg
  rw [denseArr_apply, rowDot_flat]
  simp only [supportArr_apply, rowDot_flat]
  exact (add_assoc _ _ _).symm

/-! ## The result buffer after the run -/

set_option maxHeartbeats 4000000 in
/-- What the lines after the region leave in the result buffer: `tail` of the two arrays after the region and the
    launched edge arrays. -/
theorem afterTail_eq (c : Dev nD) :
    Pipeline.afterTail₀ cfgs (dats m) 0 (V0 m) [hostOps1] c main_v21
      = tail ((dats m 0 c).arrAt 4 cfg0.N) ((dats m 0 c).arrAt 5 cfg0.N) (m ((c : Thread nD τ).loc main_arg1))
          (m ((c : Thread nD τ).loc main_arg2)) (m ((c : Thread nD τ).loc main_arg3)) := by
  have e4 : Pipeline.withArrays (cfgs 0).spec c (V0 m c) (fun w => (dats m 0 c).arrAt w (cfgs 0).N) (Proc.devRef .tc main_v1_0)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_v1_1)
      = (dats m 0 c).arrAt 5 cfg0.N := Pipeline.withArrays_arr spec0 launch0.win.arr_inj c _ _ 5
  have a1 : Pipeline.withArrays (cfgs 0).spec c (V0 m c) (fun w => (dats m 0 c).arrAt w (cfgs 0).N) (Proc.devRef .tc main_arg1)
      = m ((c : Thread nD τ).loc main_arg1) :=
    (Pipeline.withArrays_of_ne spec0 c (V0 m c) _ main_arg1 (by decide)).trans (V_main_arg1 m c)
  have a2 : Pipeline.withArrays (cfgs 0).spec c (V0 m c) (fun w => (dats m 0 c).arrAt w (cfgs 0).N) (Proc.devRef .tc main_arg2)
      = m ((c : Thread nD τ).loc main_arg2) :=
    (Pipeline.withArrays_of_ne spec0 c (V0 m c) _ main_arg2 (by decide)).trans (V_main_arg2 m c)
  have a3 : Pipeline.withArrays (cfgs 0).spec c (V0 m c) (fun w => (dats m 0 c).arrAt w (cfgs 0).N) (Proc.devRef .tc main_arg3)
      = m ((c : Thread nD τ).loc main_arg3) :=
    (Pipeline.withArrays_of_ne spec0 c (V0 m c) _ main_arg3 (by decide)).trans (V_main_arg3 m c)
  unfold Pipeline.afterTail₀
  simp only [List.flatten_cons, List.flatten_nil, List.append_nil]
  after_results_simp
  rw [e4, e5, a1, a2, a3]
  rfl

/-- THE RESULT BUFFER after the run is the specification's array of the launched arguments. -/
theorem result_eq (c : Dev nD) :
    Pipeline.afterTail₀ cfgs (dats m) 0 (V0 m) [hostOps1] c main_v21
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [afterTail_eq, final4, final5]
  exact tail_eq_out _ _ _ _ _ _ _

/-! ## The run, read -/

/-- Every weakly fair execution of the kernel program ends with the result buffer at the specification's array and
    the seven arguments unchanged. -/
theorem run : θ_run defs (onTc (τ := τ) (main (F := Ideal))) ⟨m, fun _ => 0, ρ⟩ fun r => ∀ c : Dev nD,
      r.2.mem ((c.tc : Thread nD τ).loc main_v21)
        = out (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v21 (Pipeline.mem_restRefs_of main_v21 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).1 2).trans (((dats m 0 c).arrAt_in 2 rfl _).trans ((A_eq m c 2).trans (V_main_arg5 m c))),
      ((h c).1 3).trans (((dats m 0 c).arrAt_in 3 rfl _).trans ((A_eq m c 3).trans (V_main_arg6 m c)))⟩)
    (run_main m ρ)

end Cert.KernelIdeal.KernelValue

end
-- ==== Proof.RefValue.lean ====
/-
  The reference's result, read at an index, is the specification's (EdgeSpec).

  The reference projects every node through `weight2` (`sup`), takes each edge's source node along the middle axis of
  that `[4, 20000, 256]` array (a gather of `[4, 1, 256]` slices: one node of every batch at once), scales by the
  edge's weight, and adds the messages into a `[4, 20000, 256]` array of zeros along its middle axis at the edges'
  destinations; then adds the projection through `weight1`, then the bias. Stage by stage that is `EdgeSpec.out`:
  the gather reads node `node e`, the accumulating scatter sums over `edgesInto rows n`.
-/
import proofs.«121497_j86466281603623_2_alg».proof.Proof.Gen.ReferenceIdeal.Read
import proofs.«121497_j86466281603623_2_alg».proof.Proof.EdgeSpec
import proofs.«121497_j86466281603623_2_alg».proof.Proof.LibEdgeGatherScatter

noncomputable section

namespace Cert.ReferenceIdeal.RefValue

open Cert.ReferenceIdeal Cert.ReferenceIdeal.Gen Cert.ReferenceIdeal.Read Idealize.ShloMosaic Idealize.ShloMosaic.ValueIdx
open Cert.EdgeSpec Cert.Lib

variable (x0 : (⟨S4x20000x256, .f32⟩ : BufTy).Contents (Elt Ideal)) (x1 x2 : (⟨S160000, .i32⟩ : BufTy).Contents (Elt Ideal))
  (x3 : (⟨S160000, .f32⟩ : BufTy).Contents (Elt Ideal)) (x4 x5 : (⟨S256x256, .f32⟩ : BufTy).Contents (Elt Ideal))
  (x6 : (⟨S256, .f32⟩ : BufTy).Contents (Elt Ideal))

/-- The projection through `weight2` at `(b, n, o)`. -/
theorem v0_apply (b : Fin 4) (n : Fin 20000) (o : Fin 256) :
    val_main_v0 (F := Ideal) x0 x5 (ix3 b n o) = sup x0 x5 b n o := by
  rw [val_main_v0_apply]
  unfold sup
  refine Finset.sum_congr rfl fun k _ => ?_
  have el : lidx_main_v0 (ix3 b n o) k = ix3 b n k := funext fun a => Fin.ext (by
    match a with
    | ⟨0, _⟩ => rfl
    | ⟨1, _⟩ => rfl
    | ⟨2, _⟩ => rfl)
  have er : ridx_main_v0 (ix3 b n o) k = ix2 k o := funext fun a => Fin.ext (by
    match a with
    | ⟨0, _⟩ => rfl
    | ⟨1, _⟩ => rfl)
  rw [el, er]

/-- The projection through `weight1` at `(b, n, o)`. -/
theorem v15_apply (b : Fin 4) (n : Fin 20000) (o : Fin 256) :
    val_main_v15 (F := Ideal) x0 x4 (ix3 b n o) = sup x0 x4 b n o := by
  rw [val_main_v15_apply]
  unfold sup
  refine Finset.sum_congr rfl fun k _ => ?_
  have el : lidx_main_v15 (ix3 b n o) k = ix3 b n k := funext fun a => Fin.ext (by
    match a with
    | ⟨0, _⟩ => rfl
    | ⟨1, _⟩ => rfl
    | ⟨2, _⟩ => rfl)
  have er : ridx_main_v15 (ix3 b n o) k = ix2 k o := funext fun a => Fin.ext (by
    match a with
    | ⟨0, _⟩ => rfl
    | ⟨1, _⟩ => rfl)
  rw [el, er]

/-- The source integers as the gather receives them, and the destination integers as the scatter does. -/
theorem v6_eq : val_main_v6 (F := Ideal) x2 = asColumn (fromEnd x2) := rfl
theorem v12_eq : val_main_v12 (F := Ideal) x1 = asColumn x1 := rfl

/-- The gathered projections at `(b, e, o)`: node `node e` of batch `b`. -/
theorem v7_apply (b : Fin 4) (e : Fin 160000) (o : Fin 256) :
    val_main_v7 (F := Ideal) x0 x2 x5 (ix3 b e o) = sup x0 x5 b (node x2 e) o := by
  unfold val_main_v7
  refine (gather_mid_apply (B := 4) (N := 20000) (D := 256) (E := 160000) (by decide)
    Facts₀.gather_S4x20000x256_S160000x1_S4x160000x256_02_1_n_n_1_1_41256_wf
    (val_main_v0 (F := Ideal) x0 x5) (val_main_v6 (F := Ideal) x2) b e o).trans ?_
  exact v0_apply x0 x5 b _ o

/-- The edge weights broadcast over batch and feature, at `(b, e, o)`. -/
theorem v9_apply (b : Fin 4) (e : Fin 160000) (o : Fin 256) :
    val_main_v9 (F := Ideal) x3 (ix3 b e o) = x3 (ix1 e) := by
  rw [val_main_v9_apply, val_main_v8_apply]
  exact congrArg x3 (funext fun a => Fin.ext (by match a with | ⟨0, _⟩ => rfl))

/-- The messages at `(b, e, o)`. -/
theorem v10_apply (b : Fin 4) (e : Fin 160000) (o : Fin 256) :
    val_main_v10 (F := Ideal) x0 x2 x3 x5 (ix3 b e o) = msg x0 x5 x2 x3 b e o := by
  rw [val_main_v10_apply, v7_apply, v9_apply]
  rfl

/-- The array the messages are added into is zero everywhere. -/
theorem v13_apply (i : S4x20000x256.Idx) : val_main_v13 (F := Ideal) i = Z := by
  rw [val_main_v13_apply, val_main_v11_apply, val_main_cst_apply]
  rfl

/-- The accumulated messages at `(b, n, o)`. -/
theorem v14_apply (b : Fin 4) (n : Fin 20000) (o : Fin 256) :
    val_main_v14 (F := Ideal) x0 x1 x2 x3 x5 (ix3 b n o) = agg x0 x5 x1 x2 x3 b n o := by
  unfold val_main_v14
  refine (scatterAdd_mid_apply (B := 4) (N := 20000) (D := 256) (E := 160000)
    Facts₀.scatter_S4x20000x256_S160000x1_S4x160000x256_02_1_1_1_wf (val_main_v12 (F := Ideal) x1)
    (val_main_v13 (F := Ideal)) (val_main_v10 (F := Ideal) x0 x2 x3 x5) b n o).trans ?_
  unfold agg
  refine congrArg₂ (· + ·) (v13_apply _) (Finset.sum_congr rfl fun e _ => ?_)
  exact v10_apply x0 x2 x3 x5 b e o

/-- The bias broadcast over batch and node, at `(b, n, o)`. -/
theorem v18_apply (b : Fin 4) (n : Fin 20000) (o : Fin 256) :
    val_main_v18 (F := Ideal) x6 (ix3 b n o) = x6 (ix1 o) := by
  rw [val_main_v18_apply, val_main_v17_apply]
  exact congrArg x6 (funext fun a => Fin.ext (by match a with | ⟨0, _⟩ => rfl))

/-- THE REFERENCE'S RESULT is the specification's. -/
theorem result_eq : val_main_v19 (F := Ideal) x0 x1 x2 x3 x4 x5 x6 = out x0 x1 x2 x3 x4 x5 x6 := by
  funext i
  obtain ⟨b, n, o, rfl⟩ : ∃ (b : Fin 4) (n : Fin 20000) (o : Fin 256), i = ix3 b n o := ⟨i 0, i 1, i 2, eq_ix3 i⟩
  rw [out_apply, val_main_v19_apply, val_main_v16_apply, v14_apply, v15_apply, v18_apply]
  rfl

end Cert.ReferenceIdeal.RefValue

end
-- ==== Proof.lean ====
/- The proof of `Cert.Claim` for a graph-convolution layer over a weighted edge list:

     out[b, n, :] = Σ_{e : rows[e] = n} vals[e] · (x[b, cols[e], :] · weight2)  +  x[b, n, :] · weight1  +  bias.

   The kernel program computes both dense projections of the flattened input `[80000, 256]` in one pass over 16 blocks of
   5000 rows (with the bias added to the `weight1` projection inside the body), then gathers and accumulates over a
   node-major layout `[20000, 4 · 256]` that serves all four batches with one row per node; the reference gathers and
   accumulates along the middle axis of `[4, 20000, 256]`. Over the extended reals both are the one function
   `EdgeSpec.out` of the seven arguments:
     * the two layouts sum the same messages over the same edges (LibEdgeGatherScatter, BatchLayouts);
     * the kernel ends at `agg + (x · weight1 + bias)`, the reference at `(agg + x · weight1) + bias`: equal by
       associativity of addition, which holds at the infinities, so the precondition (finite inputs) is never opened.
   Modules: EdgeSpec (the function), RefValue (the reference is it), ProjBody / ProjArrays (the kernel's two arrays
   after the region), KernelTail (the lines after the region), KernelValue (the kernel program is it). The ideal pass
   rewrote nothing, so `preserves` is `True`; the three frames are the generated ones. -/
import proofs.«121497_j86466281603623_2_alg».proof.Defs
import proofs.«121497_j86466281603623_2_alg».proof.Proof.Gen.Kernel
import proofs.«121497_j86466281603623_2_alg».proof.Proof.Gen.Kernel.Skeleton
import proofs.«121497_j86466281603623_2_alg».proof.Proof.Gen.Kernel.Launch
import proofs.«121497_j86466281603623_2_alg».proof.Proof.Gen.Kernel.Points
import proofs.«121497_j86466281603623_2_alg».proof.Proof.Gen.Kernel.Frame
import proofs.«121497_j86466281603623_2_alg».proof.Proof.Gen.KernelIdeal
import proofs.«121497_j86466281603623_2_alg».proof.Proof.Gen.KernelIdeal.Skeleton
import proofs.«121497_j86466281603623_2_alg».proof.Proof.Gen.KernelIdeal.Launch
import proofs.«121497_j86466281603623_2_alg».proof.Proof.Gen.KernelIdeal.Points
import proofs.«121497_j86466281603623_2_alg».proof.Proof.Gen.KernelIdeal.Frame
import proofs.«121497_j86466281603623_2_alg».proof.Proof.Gen.ReferenceIdeal
import proofs.«121497_j86466281603623_2_alg».proof.Proof.Gen.ReferenceIdeal.Run
import proofs.«121497_j86466281603623_2_alg».proof.Proof.Gen.ReferenceIdeal.Read
import proofs.«121497_j86466281603623_2_alg».proof.Proof.Gen.Pre_finite_inputs
import proofs.«121497_j86466281603623_2_alg».proof.Proof.KernelValue
import proofs.«121497_j86466281603623_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the result at `EdgeSpec.out` of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨?_, (h c).2⟩)
    (Cert.ReferenceIdeal.Value.run (F := Ideal) m' ρ')
  obtain ⟨h0, h1, h2, h3, h4, h5, h6⟩ := hagree c
  rw [(h c).1, Cert.ReferenceIdeal.Read.val_main_v19_eq, Cert.ReferenceIdeal.RefValue.result_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
